-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S3200000 : Shape := ⟨1, ![3200000]⟩
abbrev S512x64 : Shape := ⟨2, ![512, 64]⟩
abbrev S64 : Shape := ⟨1, ![64]⟩
abbrev S64x64 : Shape := ⟨2, ![64, 64]⟩
abbrev S64x5 : Shape := ⟨2, ![64, 5]⟩
abbrev S5 : Shape := ⟨1, ![5]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x5 : S_.BroadcastsInDim S64x5 (![] : Fin 0 → Fin S64x5.rank)
  reducesTo_S64x5_S_d0_1 : S64x5.ReducesTo [0, 1] S_
  bcast_S_S5 : S_.BroadcastsInDim S5 (![] : Fin 0 → Fin S5.rank)
  reducesTo_S5_S_d0 : S5.ReducesTo [0] S_

variable [Facts]

def fn_part2 {F : FTy → Type} [FloatOps F] (main_arg8 : FVec F S5 .f32) (main_v33 : IVec S_ 1) : IVec S_ 1 :=
  let main_v34 : FVec F S5 .f32 := Host.absf main_arg8
  let main_cst_12 : FVec F S_ .f32 := constant S_ .f32 0x7F800000#32
  let main_v35 : FVec F S5 .f32 := broadcastInDim S5 ![] bcast_S_S5 main_cst_12
  let main_v36 : IVec S5 1 := cmpf .olt main_v34 main_v35
  let main_c_13 : IVec S_ 1 := constantI S_ 1 1#1
  let main_v37 : IVec S_ 1 := (fun x v => Host.reduce IntOp.andi x v reducesTo_S5_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S64x5 .f32) (main_arg8 : FVec F S5 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x5 .f32 := Host.absf main_arg7
  let main_cst_10 : FVec F S_ .f32 := constant S_ .f32 0x7F800000#32
  let main_v30 : FVec F S64x5 .f32 := broadcastInDim S64x5 ![] bcast_S_S64x5 main_cst_10
  let main_v31 : IVec S64x5 1 := cmpf .olt main_v29 main_v30
  let main_c_11 : IVec S_ 1 := constantI S_ 1 1#1
  let main_v32 : IVec S_ 1 := (fun x v => Host.reduce IntOp.andi x v reducesTo_S64x5_S_d0_1 h_S_) main_v31 main_c_11
  let main_v33 : IVec S_ 1 := andi main_v28 main_v32
  fn_part2 (F := F) main_arg8 main_v33

def fn {F : FTy → Type} [FloatOps F] (main_arg0 : FVec F S100000x512 .f32) (main_arg1 : IVec S2x3200000 32) (main_arg2 : FVec F S3200000 .f32) (main_arg3 : FVec F S512x64 .f32) (main_arg4 : FVec F S64 .f32) (main_arg5 : FVec F S64x64 .f32) (main_arg6 : FVec F S64 .f32) (main_arg7 : FVec F S64x5 .f32) (main_arg8 : FVec F S5 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x64 .f32 := Host.absf main_arg3
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x512 : Shape := ⟨2, ![100000, 512]⟩
abbrev S2x3200000 : Shape := ⟨2, ![2, 3200000]⟩
abbrev S3200000 : Shape := ⟨1, ![3200000]⟩
abbrev S512x64 : Shape := ⟨2, ![512, 64]⟩
abbrev S64 : Shape := ⟨1, ![64]⟩
abbrev S64x64 : Shape := ⟨2, ![64, 64]⟩
abbrev S64x5 : Shape := ⟨2, ![64, 5]⟩
abbrev S5 : Shape := ⟨1, ![5]⟩
abbrev S1x3200000 : Shape := ⟨2, ![1, 3200000]⟩
abbrev S100000x64 : Shape := ⟨2, ![100000, 64]⟩
abbrev S2000x512 : Shape := ⟨2, ![2000, 512]⟩
abbrev S2000x64 : Shape := ⟨2, ![2000, 64]⟩
abbrev S_ : Shape := ⟨0, ![]⟩
abbrev S100000 : Shape := ⟨1, ![100000]⟩
abbrev S3200000x1 : Shape := ⟨2, ![3200000, 1]⟩
abbrev S3200000x64 : Shape := ⟨2, ![3200000, 64]⟩
abbrev S100000x1 : Shape := ⟨2, ![100000, 1]⟩
abbrev S1x64 : Shape := ⟨2, ![1, 64]⟩
abbrev S100000x5 : Shape := ⟨2, ![100000, 5]⟩
abbrev S2000x5 : Shape := ⟨2, ![2000, 5]⟩
abbrev S1x5 : Shape := ⟨2, ![1, 5]⟩

abbrev nBuf : Space → Nat
  | .hbm => 120
  | .vmem => 30
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x5, .f32⟩
  | .hbm, ⟨8, _⟩ => ⟨S5, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S100000x64, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S3200000, .f32⟩
  | .hbm, ⟨31, _⟩ => ⟨S3200000, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000, .f32⟩
  | .hbm, ⟨41, _⟩ => ⟨S3200000, .f32⟩
  | .hbm, ⟨42, _⟩ => ⟨S3200000x1, .f32⟩
  | .hbm, ⟨43, _⟩ => ⟨S_, .i32⟩
  | .hbm, ⟨44, _⟩ => ⟨S3200000, .i32⟩
  | .hbm, ⟨45, _⟩ => ⟨S3200000, .i1⟩
  | .hbm, ⟨46, _⟩ => ⟨S_, .i32⟩
  | .hbm, ⟨47, _⟩ => ⟨S3200000, .i32⟩
  | .hbm, ⟨48, _⟩ => ⟨S3200000, .i32⟩
  | .hbm, ⟨49, _⟩ => ⟨S3200000, .i32⟩
  | .hbm, ⟨50, _⟩ => ⟨S3200000x1, .i32⟩
  | .hbm, ⟨51, _⟩ => ⟨S3200000x64, .f32⟩
  | .hbm, ⟨52, _⟩ => ⟨S3200000x64, .f32⟩
  | .hbm, ⟨53, _⟩ => ⟨S3200000x64, .f32⟩
  | .hbm, ⟨54, _⟩ => ⟨S_, .f32⟩
  | .hbm, ⟨55, _⟩ => ⟨S100000x64, .f32⟩
  | .hbm, ⟨56, _⟩ => ⟨S3200000x1, .i32⟩
  | .hbm, ⟨57, _⟩ => ⟨S100000x64, .f32⟩
  | .hbm, ⟨58, _⟩ => ⟨S100000, .f32⟩
  | .hbm, ⟨59, _⟩ => ⟨S100000x1, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000, .f32⟩
  | .hbm, ⟨68, _⟩ => ⟨S3200000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000, .f32⟩
  | .hbm, ⟨74, _⟩ => ⟨S_, .i32⟩
  | .hbm, ⟨75, _⟩ => ⟨S3200000, .i32⟩
  | .hbm, ⟨76, _⟩ => ⟨S3200000, .i1⟩
  | .hbm, ⟨77, _⟩ => ⟨S_, .i32⟩
  | .hbm, ⟨78, _⟩ => ⟨S3200000, .i32⟩
  | .hbm, ⟨79, _⟩ => ⟨S3200000, .i32⟩
  | .hbm, ⟨80, _⟩ => ⟨S3200000, .i32⟩
  | .hbm, ⟨81, _⟩ => ⟨S3200000x1, .i32⟩
  | .hbm, ⟨82, _⟩ => ⟨S3200000, .f32⟩
  | .hbm, ⟨83, _⟩ => ⟨S3200000, .f32⟩
  | .hbm, ⟨84, _⟩ => ⟨S_, .i32⟩
  | .hbm, ⟨85, _⟩ => ⟨S3200000, .i32⟩
  | .hbm, ⟨86, _⟩ => ⟨S3200000, .i1⟩
  | .hbm, ⟨87, _⟩ => ⟨S_, .i32⟩
  | .hbm, ⟨88, _⟩ => ⟨S3200000, .i32⟩
  | .hbm, ⟨89, _⟩ => ⟨S3200000, .i32⟩
  | .hbm, ⟨90, _⟩ => ⟨S3200000, .i32⟩
  | .hbm, ⟨91, _⟩ => ⟨S3200000x1, .i32⟩
  | .hbm, ⟨92, _⟩ => ⟨S3200000, .f32⟩
  | .hbm, ⟨93, _⟩ => ⟨S3200000, .f32⟩
  | .hbm, ⟨94, _⟩ => ⟨S3200000x1, .f32⟩
  | .hbm, ⟨95, _⟩ => ⟨S_, .i32⟩
  | .hbm, ⟨96, _⟩ => ⟨S3200000, .i32⟩
  | .hbm, ⟨97, _⟩ => ⟨S3200000, .i1⟩
  | .hbm, ⟨98, _⟩ => ⟨S_, .i32⟩
  | .hbm, ⟨99, _⟩ => ⟨S3200000, .i32⟩
  | .hbm, ⟨100, _⟩ => ⟨S3200000, .i32⟩
  | .hbm, ⟨101, _⟩ => ⟨S3200000, .i32⟩
  | .hbm, ⟨102, _⟩ => ⟨S3200000x1, .i32⟩
  | .hbm, ⟨103, _⟩ => ⟨S3200000x64, .f32⟩
  | .hbm, ⟨104, _⟩ => ⟨S3200000x64, .f32⟩
  | .hbm, ⟨105, _⟩ => ⟨S3200000x64, .f32⟩
  | .hbm, ⟨106, _⟩ => ⟨S_, .f32⟩
  | .hbm, ⟨107, _⟩ => ⟨S100000x64, .f32⟩
  | .hbm, ⟨108, _⟩ => ⟨S3200000x1, .i32⟩
  | .hbm, ⟨109, _⟩ => ⟨S100000x64, .f32⟩
  | .hbm, ⟨110, _⟩ => ⟨S100000, .f32⟩
  | .hbm, ⟨111, _⟩ => ⟨S100000x1, .f32⟩
  | .hbm, ⟨112, _⟩ => ⟨S100000x64, .f32⟩
  | .hbm, ⟨113, _⟩ => ⟨S100000x64, .f32⟩
  | .hbm, ⟨114, _⟩ => ⟨S100000x64, .f32⟩
  | .hbm, ⟨115, _⟩ => ⟨S1x64, .f32⟩
  | .hbm, ⟨116, _⟩ => ⟨S100000x64, .f32⟩
  | .hbm, ⟨117, _⟩ => ⟨S100000x5, .f32⟩
  | .hbm, ⟨118, _⟩ => ⟨S1x5, .f32⟩
  | .hbm, ⟨119, _⟩ => ⟨S100000x5, .f32⟩
  | .local _ .vmem, ⟨0, _⟩ => ⟨S2000x512, .f32⟩
  | .local _ .vmem, ⟨1, _⟩ => ⟨S2000x512, .f32⟩
  | .local _ .vmem, ⟨2, _⟩ => ⟨S512x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S64x5, .f32⟩
  | .local _ .vmem, ⟨23, _⟩ => ⟨S2000x5, .f32⟩
  | .local _ .vmem, ⟨24, _⟩ => ⟨S2000x5, .f32⟩
  | .local _ .vmem, ⟨25, _⟩ => ⟨S2000x5, .f32⟩
  | .local _ .vmem, ⟨26, _⟩ => ⟨S2000x5, .f32⟩
  | .local _ .vmem, ⟨27, _⟩ => ⟨S1x5, .f32⟩
  | .local _ .vmem, ⟨28, _⟩ => ⟨S2000x5, .f32⟩
  | .local _ .vmem, ⟨29, _⟩ => ⟨S2000x5, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_9 : Ref sig .tc := ⟨.hbm, 74, rfl⟩
abbrev main_v54 : Ref sig .tc := ⟨.hbm, 75, rfl⟩
abbrev main_v55 : Ref sig .tc := ⟨.hbm, 76, rfl⟩
abbrev main_c_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_11 : Ref sig .tc := ⟨.hbm, 84, rfl⟩
abbrev main_v62 : Ref sig .tc := ⟨.hbm, 85, rfl⟩
abbrev main_v63 : Ref sig .tc := ⟨.hbm, 86, rfl⟩
abbrev main_c_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_c_13 : Ref sig .tc := ⟨.hbm, 95, rfl⟩
abbrev main_v71 : Ref sig .tc := ⟨.hbm, 96, rfl⟩
abbrev main_v72 : Ref sig .tc := ⟨.hbm, 97, rfl⟩
abbrev main_c_14 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_15 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x5 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x5 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x5 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x5 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x5 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S2000x64_S2000x64_0_0 : ∀ a, (![0, 0] : Fin 2 → Nat) a + S2000x64.size a ≤ S2000x64.size a
  h_S2000x64 : 0 < S2000x64.numel
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  inb_S64x5_S64x5_0_0 : ∀ a, (![0, 0] : Fin 2 → Nat) a + S64x5.size a ≤ S64x5.size a
  h_S64x5 : 0 < S64x5.numel
  inb_S2000x5_S2000x5_0_0 : ∀ a, (![0, 0] : Fin 2 → Nat) a + S2000x5.size a ≤ S2000x5.size a
  h_S2000x5 : 0 < S2000x5.numel
  shapeCasts_S5_S1x5 : S5.ShapeCasts S1x5
  shapeCasts_S2000x5_S2000x5 : S2000x5.ShapeCasts S2000x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S2000x5 : S1x5.Broadcasts S2000x5
  dot_S2000x512_S512x64_S2000x64_1_0_0_1_n_n_wf : DotDims.WF S2000x512 S512x64 S2000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S2000x64_S64x64_S2000x64_1_0_0_1_n_n_wf : DotDims.WF S2000x64 S64x64 S2000x64 [1] [0] [0] [1] [] []
  dot_S2000x64_S64x5_S2000x5_1_0_0_1_n_n_wf : DotDims.WF S2000x64 S64x5 S2000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x5.size a ≤ S64x5.size a
  hwx4_1 : ∀ i : grid4.Coords, EltTy.bits .f32 = 32 ∨ (Rect.block (s := S64x5) S64x5.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x5.size a ≤ S100000x5.size a
  hwx4_2 : ∀ i : grid4.Coords, EltTy.bits .f32 = 32 ∨ (Rect.block (s := S100000x5) S2000x5.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x5.size a ≤ S100000x5.size a
  hwx5_0 : ∀ i : grid5.Coords, EltTy.bits .f32 = 32 ∨ (Rect.block (s := S100000x5) S2000x5.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x5.size a ≤ S1x5.size a
  hwx5_1 : ∀ i : grid5.Coords, EltTy.bits .f32 = 32 ∨ (Rect.block (s := S1x5) S1x5.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x5.size a ≤ S100000x5.size a
  hwx5_2 : ∀ i : grid5.Coords, EltTy.bits .f32 = 32 ∨ (Rect.block (s := S100000x5) S2000x5.size (cc5_transform_2 i) (hinb5_2 i)).WholeWords (EltTy.packing .f32)

variable [Facts₀]

def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x5_S2000x5_1_0_0_1_n_n : DotDims S2000x64 S64x5 S2000x5 where
  lhsContracting := [1]
  rhsContracting := [0]
  lhsNonContracting := [0]
  rhsNonContracting := [1]
  lhsBatch := []
  rhsBatch := []
  wf := dot_S2000x64_S64x5_S2000x5_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v87) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v88) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v89) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v89) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x5.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v90) S2000x5.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v90) S2000x5.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v91) S1x5.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v92) S2000x5.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S3200000 : Shape := ⟨1, ![3200000]⟩
abbrev S512x64 : Shape := ⟨2, ![512, 64]⟩
abbrev S64 : Shape := ⟨1, ![64]⟩
abbrev S64x64 : Shape := ⟨2, ![64, 64]⟩
abbrev S64x5 : Shape := ⟨2, ![64, 5]⟩
abbrev S5 : Shape := ⟨1, ![5]⟩
abbrev S1x3200000 : Shape := ⟨2, ![1, 3200000]⟩
abbrev S100000x64 : Shape := ⟨2, ![100000, 64]⟩
abbrev S_ : Shape := ⟨0, ![]⟩
abbrev S100000 : Shape := ⟨1, ![100000]⟩
abbrev S3200000x1 : Shape := ⟨2, ![3200000, 1]⟩
abbrev S3200000x64 : Shape := ⟨2, ![3200000, 64]⟩
abbrev S100000x1 : Shape := ⟨2, ![100000, 1]⟩
abbrev S1x64 : Shape := ⟨2, ![1, 64]⟩
abbrev S100000x5 : Shape := ⟨2, ![100000, 5]⟩
abbrev S1x5 : Shape := ⟨2, ![1, 5]⟩

abbrev nBuf : Space → Nat
  | .hbm => 129
  | .vmem => 0
  | .smem => 0
  | _ => 0

abbrev hbmTy0_0 (i : Nat) : BufTy := match i % 128 with
  | 0 => ⟨S100000x512, .f32⟩
  | 1 => ⟨S2x3200000, .i32⟩
  | 2 => ⟨S3200000, .f32⟩
  | 3 => ⟨S512x64, .f32⟩
  | 4 => ⟨S64, .f32⟩
  | 5 => ⟨S64x64, .f32⟩
  | 6 => ⟨S64, .f32⟩
  | 7 => ⟨S64x5, .f32⟩
  | 8 => ⟨S5, .f32⟩
  | 9 => ⟨S1x3200000, .i32⟩
  | 10 => ⟨S3200000, .i32⟩
  | 11 => ⟨S1x3200000, .i32⟩
  | 12 => ⟨S3200000, .i32⟩
  | 13 => ⟨S100000x64, .f32⟩
  | 14 => ⟨S_, .f32⟩
  | 15 => ⟨S100000, .f32⟩
  | 16 => ⟨S3200000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S_, .i32⟩
  | 23 => ⟨S3200000, .i32⟩
  | 24 => ⟨S3200000, .i1⟩
  | 25 => ⟨S_, .i32⟩
  | 26 => ⟨S3200000, .i32⟩
  | 27 => ⟨S3200000, .i32⟩
  | 28 => ⟨S3200000, .i32⟩
  | 29 => ⟨S3200000x1, .i32⟩
  | 30 => ⟨S3200000, .f32⟩
  | 31 => ⟨S3200000, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000, .f32⟩
  | 41 => ⟨S3200000, .f32⟩
  | 42 => ⟨S3200000x1, .f32⟩
  | 43 => ⟨S_, .i32⟩
  | 44 => ⟨S3200000, .i32⟩
  | 45 => ⟨S3200000, .i1⟩
  | 46 => ⟨S_, .i32⟩
  | 47 => ⟨S3200000, .i32⟩
  | 48 => ⟨S3200000, .i32⟩
  | 49 => ⟨S3200000, .i32⟩
  | 50 => ⟨S3200000x1, .i32⟩
  | 51 => ⟨S3200000x64, .f32⟩
  | 52 => ⟨S3200000x64, .f32⟩
  | 53 => ⟨S3200000x64, .f32⟩
  | 54 => ⟨S_, .f32⟩
  | 55 => ⟨S100000x64, .f32⟩
  | 56 => ⟨S3200000x1, .i32⟩
  | 57 => ⟨S100000x64, .f32⟩
  | 58 => ⟨S100000, .f32⟩
  | 59 => ⟨S100000x1, .f32⟩
  | 60 => ⟨S100000x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S_, .f32⟩
  | 71 => ⟨S100000, .f32⟩
  | 72 => ⟨S3200000x1, .i32⟩
  | 73 => ⟨S100000, .f32⟩
  | 74 => ⟨S_, .f32⟩
  | 75 => ⟨S100000, .f32⟩
  | 76 => ⟨S100000, .f32⟩
  | 77 => ⟨S100000, .f32⟩
  | 78 => ⟨S_, .i32⟩
  | 79 => ⟨S3200000, .i32⟩
  | 80 => ⟨S3200000, .i1⟩
  | 81 => ⟨S_, .i32⟩
  | 82 => ⟨S3200000, .i32⟩
  | 83 => ⟨S3200000, .i32⟩
  | 84 => ⟨S3200000, .i32⟩
  | 85 => ⟨S3200000x1, .i32⟩
  | 86 => ⟨S3200000, .f32⟩
  | 87 => ⟨S3200000, .f32⟩
  | 88 => ⟨S_, .i32⟩
  | 89 => ⟨S3200000, .i32⟩
  | 90 => ⟨S3200000, .i1⟩
  | 91 => ⟨S_, .i32⟩
  | 92 => ⟨S3200000, .i32⟩
  | 93 => ⟨S3200000, .i32⟩
  | 94 => ⟨S3200000, .i32⟩
  | 95 => ⟨S3200000x1, .i32⟩
  | 96 => ⟨S3200000, .f32⟩
  | 97 => ⟨S3200000, .f32⟩
  | 98 => ⟨S3200000x1, .f32⟩
  | 99 => ⟨S_, .i32⟩
  | 100 => ⟨S3200000, .i32⟩
  | 101 => ⟨S3200000, .i1⟩
  | 102 => ⟨S_, .i32⟩
  | 103 => ⟨S3200000, .i32⟩
  | 104 => ⟨S3200000, .i32⟩
  | 105 => ⟨S3200000, .i32⟩
  | 106 => ⟨S3200000x1, .i32⟩
  | 107 => ⟨S3200000x64, .f32⟩
  | 108 => ⟨S3200000x64, .f32⟩
  | 109 => ⟨S3200000x64, .f32⟩
  | 110 => ⟨S_, .f32⟩
  | 111 => ⟨S100000x64, .f32⟩
  | 112 => ⟨S3200000x1, .i32⟩
  | 113 => ⟨S100000x64, .f32⟩
  | 114 => ⟨S100000, .f32⟩
  | 115 => ⟨S100000x1, .f32⟩
  | 116 => ⟨S100000x64, .f32⟩
  | 117 => ⟨S100000x64, .f32⟩
  | 118 => ⟨S100000x64, .f32⟩
  | 119 => ⟨S1x64, .f32⟩
  | 120 => ⟨S100000x64, .f32⟩
  | 121 => ⟨S100000x64, .f32⟩
  | 122 => ⟨S_, .f32⟩
  | 123 => ⟨S100000x64, .f32⟩
  | 124 => ⟨S100000x64, .f32⟩
  | 125 => ⟨S100000x5, .f32⟩
  | 126 => ⟨S1x5, .f32⟩
  | 127 => ⟨S100000x5, .f32⟩
  | _ => ⟨S100000x512, .f32⟩

abbrev hbmTy0_1 (i : Nat) : BufTy := match i % 128 with
  | 0 => ⟨S100000x5, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_7 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_9 : Ref sig .tc := ⟨.hbm, 78, rfl⟩
abbrev main_v56 : Ref sig .tc := ⟨.hbm, 79, rfl⟩
abbrev main_v57 : Ref sig .tc := ⟨.hbm, 80, rfl⟩
abbrev main_c_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_11 : Ref sig .tc := ⟨.hbm, 88, rfl⟩
abbrev main_v64 : Ref sig .tc := ⟨.hbm, 89, rfl⟩
abbrev main_v65 : Ref sig .tc := ⟨.hbm, 90, rfl⟩
abbrev main_c_12 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_13 : Ref sig .tc := ⟨.hbm, 99, rfl⟩
abbrev main_v73 : Ref sig .tc := ⟨.hbm, 100, rfl⟩
abbrev main_v74 : Ref sig .tc := ⟨.hbm, 101, rfl⟩
abbrev main_c_14 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_15 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_call1_cst : Ref sig .tc := ⟨.hbm, 122, rfl⟩
abbrev main_call1_v0 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  dot_S100000x512_S512x64_S100000x64_1_0_0_1_n_n_wf : DotDims.WF S100000x512 S512x64 S100000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  dot_S100000x64_S64x5_S100000x5_1_0_0_1_n_n_wf : DotDims.WF S100000x64 S64x5 S100000x5 [1] [0] [0] [1] [] []

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x5_S100000x5_1_0_0_1_n_n : DotDims S100000x64 S64x5 S100000x5 where
  lhsContracting := [1]
  rhsContracting := [0]
  lhsNonContracting := [0]
  rhsNonContracting := [1]
  lhsBatch := []
  rhsBatch := []
  wf := dot_S100000x64_S64x5_S100000x5_1_0_0_1_n_n_wf

class Facts : Prop extends Facts₀ where

variable [Facts]
-- ==== Proof.KernelRun.lean ====
/-
  The idealized kernel's run, read at its result.

  @main is ten segments: four stretches of host operations and six kernel launches. The contents of the TensorCore's
  buffers at each boundary between segments form a fold from the launch memory: a stretch applies its operations, a launch
  replaces its arrays by what its write-backs leave and keeps every other buffer. Every weakly fair execution terminates
  with every buffer at the end of that fold; stated here for the result buffer, beside the argument arrays, which end as
  launched.
-/
import proofs.«167058_j34514357191054_1_alg».proof.Proof.Gen.KernelIdeal.Frame

set_option maxRecDepth 16384

noncomputable section

namespace Cert.KernelIdeal.RunRead

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents (the fold `W10`), and the argument arrays end as launched. -/
theorem run_result : θ_run defs (onTc (τ := τ) (main (F := F))) ⟨m, fun _ => 0, ρ⟩ (fun r => ∀ c : Dev nD,
      r.2.mem ((c.tc : Thread nD τ).loc main_v92) = W10 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v92 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.RunRead

end
-- ==== Proof.LibContract.lean ====
/-
  A contraction over ONE axis, read as a sum over that axis's coordinate.

  A matrix product on the TensorCore (into a zero accumulator) and the host's `dot_general` are, at the ideal values, the
  sum over the contraction index of the operands' products. When one axis is contracted the contraction index is a single
  coordinate `i < n`, and the sum is the `Fin n`-indexed sum of whatever the two operands are at the operand indices
  that coordinate selects.
-/
import Idealize.ShloMosaic.PureOps.Ideal.Laws
import Idealize.ShloMosaic.Lib.ValueIdx

namespace Idealize.ShloMosaic.ContractSingle

open Idealize.ShloMosaic.ValueIdx

/-- The sum over a one-axis contraction index, with the operands' factors named at each coordinate `i` of the contracted
    axis (`hl`, `hr`), is the sum of the named factors' products over `i`. -/
theorem sum_single {sl sr so : Shape} (d : DotDims sl sr so) (n : Nat) (hrank : d.contr.rank = 1)
    (hsize : d.contr.size ⟨0, by omega⟩ = n) (l : sl.Idx → EReal) (r : sr.Idx → EReal) (j : so.Idx) (L R : Fin n → EReal)
    (hl : ∀ i : Fin n, l (d.lhsIdx j ((contrEquiv1 d n hrank hsize).symm i)) = L i)
    (hr : ∀ i : Fin n, r (d.rhsIdx j ((contrEquiv1 d n hrank hsize).symm i)) = R i) :
    ∑ k : d.contr.Idx, l (d.lhsIdx j k) * r (d.rhsIdx j k) = ∑ i : Fin n, L i * R i := by
  rw [← Equiv.sum_comp (contrEquiv1 d n hrank hsize).symm]
  exact Finset.sum_congr rfl fun i _ => by rw [hl i, hr i]

/-- A TensorCore matrix product into the zero accumulator, one axis contracted, read at an output index. -/
theorem matmul_zero_single {sl sr so : Shape} {φ₁ φ₂ : FTy} (d : DotDims sl sr so) (prec : Option ContractPrecision) (n : Nat)
    (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.matmul d prec lhs rhs (constant so .f32 0x00000000#32) j = ∑ i : Fin n, L i * R i :=
  (Ideal.matmul_constant_zero_apply d prec lhs rhs j).trans (sum_single d n hrank hsize lhs rhs j L R hl hr)

/-- The host's `dot_general`, one axis contracted, read at an output index. -/
theorem dotGeneral_single {sl sr so : Shape} {φ₁ φ₂ : FTy} (d : DotDims sl sr so) (prec : Option ContractPrecision)
    (sched : HostSchedule) (n : Nat) (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.dotGeneral d prec sched lhs rhs j = ∑ i : Fin n, L i * R i :=
  (Ideal.dotGeneral_apply d prec sched lhs rhs j).trans (sum_single d n hrank hsize lhs rhs j L R hl hr)

end Idealize.ShloMosaic.ContractSingle
-- ==== Proof.LibRowsCols.lean ====
/-
  A matrix product of rows by columns, read at a row and a column.

  When the left operand's columns are contracted against the right operand's rows, the product at `(a, c)` — on the
  TensorCore into a zero accumulator, or the host's `dot_general` — is, at the ideal values, the sum over the shared
  coordinate `k` of the left operand at `(a, k)` times the right operand at `(k, c)`.
-/
import Idealize.ShloMosaic.PureOps.Ideal.Laws
import Idealize.ShloMosaic.Lib.ValueIdx
import proofs.«167058_j34514357191054_1_alg».proof.Proof.LibContract

namespace Idealize.ShloMosaic.RowsCols

open Idealize.ShloMosaic.ValueIdx

variable {M K N : Nat} (d : DotDims ⟨2, ![M, K]⟩ ⟨2, ![K, N]⟩ ⟨2, ![M, N]⟩)
  (hcl : d.lhsContracting = [1]) (hcr : d.rhsContracting = [0])
  (hrank : d.contr.rank = 1) (hsize : d.contr.size ⟨0, by omega⟩ = K)
  (hl0 : ∀ (j : (⟨2, ![M, N]⟩ : Shape).Idx) (q : d.contr.Idx), (d.lhsIdx j q 0).val = (j 0).val)
  (hr1 : ∀ (j : (⟨2, ![M, N]⟩ : Shape).Idx) (q : d.contr.Idx), (d.rhsIdx j q 1).val = (j 1).val)

include hcl hl0 in
/-- The left operand's index at output `(a, c)` and shared coordinate `k` is `(a, k)`. -/
theorem lhsIdx_eq (a : Fin M) (c : Fin N) (k : Fin K) :
    d.lhsIdx (ix2 a c) ((contrEquiv1 d K hrank hsize).symm k) = ix2 a k := by
  have hk := contrEquiv1_symm_val d K hrank hsize k
  funext x
  refine Fin.ext ?_
  match x with
  | ⟨0, _⟩ => exact hl0 _ _
  | ⟨1, _⟩ => exact (d.lhsIdx_val_of_single hcl _ _).trans hk

include hcr hr1 in
/-- The right operand's index at output `(a, c)` and shared coordinate `k` is `(k, c)`. -/
theorem rhsIdx_eq (a : Fin M) (c : Fin N) (k : Fin K) :
    d.rhsIdx (ix2 a c) ((contrEquiv1 d K hrank hsize).symm k) = ix2 k c := by
  have hk := contrEquiv1_symm_val d K hrank hsize k
  funext x
  refine Fin.ext ?_
  match x with
  | ⟨0, _⟩ => exact (d.rhsIdx_val_of_single hcr _ _).trans hk
  | ⟨1, _⟩ => exact hr1 _ _

include hcl hcr hrank hsize hl0 hr1 in
/-- The TensorCore product into the zero accumulator at `(a, c)`. -/
theorem matmul_zero_apply {φ₁ φ₂ : FTy} (prec : Option ContractPrecision)
    (lhs : FVec Ideal ⟨2, ![M, K]⟩ φ₁) (rhs : FVec Ideal ⟨2, ![K, N]⟩ φ₂) (a : Fin M) (c : Fin N) :
    FloatOps.matmul d prec lhs rhs (constant ⟨2, ![M, N]⟩ .f32 0x00000000#32) (ix2 a c) = ∑ k : Fin K, lhs (ix2 a k) * rhs (ix2 k c) :=
  ContractSingle.matmul_zero_single d prec K hrank hsize lhs rhs (ix2 a c) (fun k => lhs (ix2 a k)) (fun k => rhs (ix2 k c))
    (fun k => congrArg lhs (lhsIdx_eq d hcl hrank hsize hl0 a c k)) (fun k => congrArg rhs (rhsIdx_eq d hcr hrank hsize hr1 a c k))

include hcl hcr hrank hsize hl0 hr1 in
/-- The host's `dot_general` at `(a, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (a : Fin M) (c : Fin N) :
    FloatOps.dotGeneral d prec sched lhs rhs (ix2 a c) = ∑ k : Fin K, lhs (ix2 a k) * rhs (ix2 k c) :=
  ContractSingle.dotGeneral_single d prec sched K hrank hsize lhs rhs (ix2 a c) (fun k => lhs (ix2 a k)) (fun k => rhs (ix2 k c))
    (fun k => congrArg lhs (lhsIdx_eq d hcl hrank hsize hl0 a c k)) (fun k => congrArg rhs (rhsIdx_eq d hcr hrank hsize hr1 a c k))

end Idealize.ShloMosaic.RowsCols
-- ==== Proof.Dense.lean ====
/-
  The two dense pieces of a layer, as functions of whole arrays over the extended reals.

  A product of an [M, K] array by a [K, N] array has, at (a, c), the sum over k of x (a, k) * w (k, c). A row b of shape
  [1, N] added to every row of an [M, N] array t has, at (a, c), t (a, c) + b (0, c); floored at zero it is the maximum
  of that and 0.
-/
import Idealize.ShloMosaic.PureOps.Ideal.Laws
import Idealize.ShloMosaic.Lib.ValueIdx

noncomputable section

namespace Cert.Gcn

open Idealize.ShloMosaic Idealize.ShloMosaic.ValueIdx

/-- The product of x : [M, K] by w : [K, N], entry by entry. -/
def matProd {M K N : Nat} (x : FVec Ideal ⟨2, ![M, K]⟩ .f32) (w : FVec Ideal ⟨2, ![K, N]⟩ .f32) : FVec Ideal ⟨2, ![M, N]⟩ .f32 :=
  fun i => ∑ k : Fin K, x (ix2 (⟨(i 0).val, idx2_lt0 i⟩ : Fin M) k) * w (ix2 k (⟨(i 1).val, idx2_lt1 i⟩ : Fin N))

theorem matProd_ix2 {M K N : Nat} (x : FVec Ideal ⟨2, ![M, K]⟩ .f32) (w : FVec Ideal ⟨2, ![K, N]⟩ .f32) (a : Fin M) (c : Fin N) :
    matProd x w (ix2 a c) = ∑ k : Fin K, x (ix2 a k) * w (ix2 k c) := rfl

/-- The one row b added to every row of t. -/
def addRow {M N : Nat} (t : FVec Ideal ⟨2, ![M, N]⟩ .f32) (b : FVec Ideal ⟨2, ![1, N]⟩ .f32) : FVec Ideal ⟨2, ![M, N]⟩ .f32 :=
  fun i => t i + b (ix2 (0 : Fin 1) (⟨(i 1).val, idx2_lt1 i⟩ : Fin N))

theorem addRow_ix2 {M N : Nat} (t : FVec Ideal ⟨2, ![M, N]⟩ .f32) (b : FVec Ideal ⟨2, ![1, N]⟩ .f32) (a : Fin M) (c : Fin N) :
    addRow t b (ix2 a c) = t (ix2 a c) + b (ix2 (0 : Fin 1) c) := rfl

/-- The same, floored at zero. -/
def addRowFloor {M N : Nat} (t : FVec Ideal ⟨2, ![M, N]⟩ .f32) (b : FVec Ideal ⟨2, ![1, N]⟩ .f32) : FVec Ideal ⟨2, ![M, N]⟩ .f32 :=
  fun i => max (t i + b (ix2 (0 : Fin 1) (⟨(i 1).val, idx2_lt1 i⟩ : Fin N))) (Ideal.ofBits .f32 0x00000000#32)

theorem addRowFloor_ix2 {M N : Nat} (t : FVec Ideal ⟨2, ![M, N]⟩ .f32) (b : FVec Ideal ⟨2, ![1, N]⟩ .f32) (a : Fin M) (c : Fin N) :
    addRowFloor t b (ix2 a c) = max (t (ix2 a c) + b (ix2 (0 : Fin 1) c)) (Ideal.ofBits .f32 0x00000000#32) := rfl

end Cert.Gcn

end
-- ==== Proof.Product0.lean ====
/-
  Launch 0 of the idealized kernel: a product of [100000, 512] by [512, 64], computed 2000 rows at a time.

  Grid point t multiplies rows 2000 t … 2000 t + 1999 of the left array by the whole right array (the rounding of both
  operands to bf16 on the way into the matrix unit is the identity over the extended reals, and the accumulator starts at
  zero) and writes the 2000 result rows back to rows 2000 t … of the output. Entry (2000 t + p, q) of what is written is
  the sum over k of x (2000 t + p, k) * w (k, q): entry (2000 t + p, q) of the whole product. The fifty blocks tile the
  output, so after the launch the output array IS the product of the two arrays as the launch found them.
-/
import proofs.«167058_j34514357191054_1_alg».proof.Proof.Gen.KernelIdeal.Frame
import proofs.«167058_j34514357191054_1_alg».proof.Proof.LibRowsCols
import proofs.«167058_j34514357191054_1_alg».proof.Proof.Dense
import Idealize.ShloMosaic.Lib.Pipeline.Value
import Idealize.ShloMosaic.Lib.ValueIdx

set_option maxRecDepth 16384

noncomputable section

namespace Cert.KernelIdeal.Product0

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

/-! ## The matrix unit's operand indices -/

/-- The left operand is read in the output's row. -/
theorem lhs_row (j : S2000x64.Idx) (q : dot_S2000x512_S512x64_S2000x64_1_0_0_1_n_n.contr.Idx) :
    (dot_S2000x512_S512x64_S2000x64_1_0_0_1_n_n.lhsIdx j q 0).val = (j 0).val := by
  unfold DotDims.lhsIdx
  rw [dif_neg (show ¬(0 : Fin S2000x512.rank) ∈ dot_S2000x512_S512x64_S2000x64_1_0_0_1_n_n.lhsBatch by decide), dif_pos (show (0 : Fin S2000x512.rank) ∈ dot_S2000x512_S512x64_S2000x64_1_0_0_1_n_n.lhsNonContracting by decide)]
  rfl

/-- The right operand is read in the output's column. -/
theorem rhs_col (j : S2000x64.Idx) (q : dot_S2000x512_S512x64_S2000x64_1_0_0_1_n_n.contr.Idx) :
    (dot_S2000x512_S512x64_S2000x64_1_0_0_1_n_n.rhsIdx j q 1).val = (j 1).val := by
  unfold DotDims.rhsIdx
  rw [dif_neg (show ¬(1 : Fin S512x64.rank) ∈ dot_S2000x512_S512x64_S2000x64_1_0_0_1_n_n.rhsBatch by decide), dif_pos (show (1 : Fin S512x64.rank) ∈ dot_S2000x512_S512x64_S2000x64_1_0_0_1_n_n.rhsNonContracting by decide)]
  rfl

/-- What one grid point stores, at (p, q): the sum over k of the left block at (p, k) times the right block at (k, q). -/
theorem stored_apply (x0 : Vec Ideal S2000x512 .f32) (x1 : Vec Ideal S512x64 .f32) (p : Fin 2000) (q : Fin 64) :
    k0_pay1 x0 x1 (ix2 p q) = ∑ k : Fin 512, x0 (ix2 p k) * x1 (ix2 k q) := by
  unfold k0_pay1
  exact RowsCols.matmul_zero_apply dot_S2000x512_S512x64_S2000x64_1_0_0_1_n_n rfl rfl rfl rfl lhs_row rhs_col none _ _ p q

/-! ## The blocks -/

theorem hz : (![0, 0] : Fin 2 → Nat) = fun _ => 0 := funext fun a => by fin_cases a <;> rfl

/-- The index maps over the grid: the left array and the output move by row blocks, the right array stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- What point t writes back is block t of the product of the two arrays as the launch finds them. -/
theorem flushed_eq (c : Dev nD) (t : Fin cfg0.N) :
    (dat0 V c).flushed 2 t = ((cfg0.win 2).blk t).view.read (Elt Ideal)
      (matProd (M := 100000) (K := 512) (N := 64) (V c main_arg0) (V c main_arg3)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x64) hz]
  obtain ⟨e00, e01, e10, e11, e20, e21⟩ := idx_facts t
  have hN : cfg0.N = 50 := N_0
  have ht : t.val < 50 := by have := t.isLt; omega
  funext j
  obtain ⟨p, q, rfl⟩ : ∃ (p : Fin 2000) (q : Fin 64), j = ix2 p q := ⟨j 0, j 1, eq_ix2 j⟩
  have hr : t.val * 2000 + p.val < 100000 := by have := p.isLt; omega
  have hE2 : ((cfg0.win 2).blk t).view.emb (ix2 p q) = (ix2 (⟨t.val * 2000 + p.val, hr⟩ : Fin 100000) q : S100000x64.Idx) := by
    funext a; apply Fin.ext
    match a with
    | ⟨0, _⟩ => show win0_2.index t (0 : Fin 2) * 2000 + 1 * p.val = t.val * 2000 + p.val; omega
    | ⟨1, _⟩ => show win0_2.index t (1 : Fin 2) * 64 + 1 * q.val = q.val; omega
  show k0_pay1 (iblk0 V c 0 t) (iblk0 V c 1 t) (ix2 p q)
    = matProd (M := 100000) (K := 512) (N := 64) (V c main_arg0) (V c main_arg3) (((cfg0.win 2).blk t).view.emb (ix2 p q))
  rw [hE2, matProd_ix2]
  refine (stored_apply _ _ p q).trans (Finset.sum_congr rfl fun k _ => ?_)
  have hE0 : ((cfg0.win 0).blk t).view.emb (ix2 p k) = (ix2 (⟨t.val * 2000 + p.val, hr⟩ : Fin 100000) k : S100000x512.Idx) := by
    funext a; apply Fin.ext
    match a with
    | ⟨0, _⟩ => show win0_0.index t (0 : Fin 2) * 2000 + 1 * p.val = t.val * 2000 + p.val; omega
    | ⟨1, _⟩ => show win0_0.index t (1 : Fin 2) * 512 + 1 * k.val = k.val; omega
  have hE1 : ((cfg0.win 1).blk t).view.emb (ix2 k q) = (ix2 k q : S512x64.Idx) := by
    funext a; apply Fin.ext
    match a with
    | ⟨0, _⟩ => show win0_1.index t (0 : Fin 2) * 512 + 1 * k.val = k.val; omega
    | ⟨1, _⟩ => show win0_1.index t (1 : Fin 2) * 64 + 1 * q.val = q.val; omega
  exact congrArg₂ (fun (u v : EReal) => u * v) (congrArg (V c main_arg0) hE0) (congrArg (V c main_arg3) hE1)

/-- An index of the output is in point t's block iff each coordinate is in the block's range on its axis. -/
theorem mem_blk (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v4).slice (win0_2.rect t)).set ↔ _
  rw [View.set_slice_whole, Rect.mem_set_unit]
  exact Iff.rfl

/-- Row r of the output is in the block of point r / 2000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 50 := N_0
  obtain ⟨t, ht⟩ : ∃ t : Fin cfg0.N, t.val = (i 0).val / 2000 := ⟨⟨(i 0).val / 2000, by omega⟩, rfl⟩
  obtain ⟨-, -, -, -, e20, e21⟩ := idx_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- After the launch the output array is the product of the two arrays as the launch found them. -/
theorem array_eq (c : Dev nD) :
    (dat0 V c).arrAt 2 cfg0.N = matProd (M := 100000) (K := 512) (N := 64) (V c main_arg0) (V c main_arg3) :=
  (dat0 V c).arrAt_eq_of_cover 2 _ (fun t _ => flushed_eq V c t) cover

end

end Cert.KernelIdeal.Product0

end
-- ==== Proof.Product2.lean ====
/-
  Launch 2 of the idealized kernel: a product of [100000, 64] by [64, 64], computed 2000 rows at a time.

  Grid point t multiplies rows 2000 t … 2000 t + 1999 of the left array by the whole right array (the rounding of both
  operands to bf16 on the way into the matrix unit is the identity over the extended reals, and the accumulator starts at
  zero) and writes the 2000 result rows back to rows 2000 t … of the output. Entry (2000 t + p, q) of what is written is
  the sum over k of x (2000 t + p, k) * w (k, q): entry (2000 t + p, q) of the whole product. The fifty blocks tile the
  output, so after the launch the output array IS the product of the two arrays as the launch found them.
-/
import proofs.«167058_j34514357191054_1_alg».proof.Proof.Gen.KernelIdeal.Frame
import proofs.«167058_j34514357191054_1_alg».proof.Proof.LibRowsCols
import proofs.«167058_j34514357191054_1_alg».proof.Proof.Dense
import Idealize.ShloMosaic.Lib.Pipeline.Value
import Idealize.ShloMosaic.Lib.ValueIdx

set_option maxRecDepth 16384

noncomputable section

namespace Cert.KernelIdeal.Product2

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

/-! ## The matrix unit's operand indices -/

/-- The left operand is read in the output's row. -/
theorem lhs_row (j : S2000x64.Idx) (q : dot_S2000x64_S64x64_S2000x64_1_0_0_1_n_n.contr.Idx) :
    (dot_S2000x64_S64x64_S2000x64_1_0_0_1_n_n.lhsIdx j q 0).val = (j 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl

/-- The right operand is read in the output's column. -/
theorem rhs_col (j : S2000x64.Idx) (q : dot_S2000x64_S64x64_S2000x64_1_0_0_1_n_n.contr.Idx) :
    (dot_S2000x64_S64x64_S2000x64_1_0_0_1_n_n.rhsIdx j q 1).val = (j 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- What one grid point stores, at (p, q): the sum over k of the left block at (p, k) times the right block at (k, q). -/
theorem stored_apply (x0 : FVec Ideal S2000x64 .f32) (x1 : FVec Ideal S64x64 .f32) (p : Fin 2000) (q : Fin 64) :
    k2_pay1 x0 x1 (ix2 p q) = ∑ k : Fin 64, x0 (ix2 p k) * x1 (ix2 k q) := by
  unfold k2_pay1
  have e1 : ∀ h, shapeCast S2000x64 x0 h = x0 := fun h => shapeCast_self _ h
  show matmul dot_S2000x64_S64x64_S2000x64_1_0_0_1_n_n none (truncf .bf16 (shapeCast S2000x64 x0 _) _) (truncf .bf16 x1 _) (constant S2000x64 .f32 0x00000000#32) (ix2 p q) = _
  rw [e1]
  exact RowsCols.matmul_zero_apply dot_S2000x64_S64x64_S2000x64_1_0_0_1_n_n rfl rfl rfl rfl lhs_row rhs_col none _ _ p q

/-! ## The blocks -/

theorem hz : (![0, 0] : Fin 2 → Nat) = fun _ => 0 := funext fun a => by fin_cases a <;> rfl

/-- The index maps over the grid: the left array and the output move by row blocks, the right array stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section
variable (V : (c : Dev nD) → (b : Ref sig .tc) → Buf (Elt Ideal) ((c : Thread nD τ).loc b))

/-- What point t writes back is block t of the product of the two arrays as the launch finds them. -/
theorem flushed_eq (c : Dev nD) (t : Fin cfg2.N) :
    (dat2 V c).flushed 2 t = ((cfg2.win 2).blk t).view.read (Elt Ideal)
      (matProd (M := 100000) (K := 64) (N := 64) (V c main_v46) (V c main_arg5)) := by
  show (cfg2.win 2).cut (grid2.coords t) ((dat2 V c).after 2 t) = _
  rw [after2_2]
  unfold out2_2
  rw [View.canon_unit_zero hz]
  simp only [View.ld_unit_zero (S := S2000x64) hz, View.ld_unit_zero (S := S64x64) hz]
  obtain ⟨e00, e01, e10, e11, e20, e21⟩ := idx_facts t
  have hN : cfg2.N = 50 := N_2
  have ht : t.val < 50 := by have := t.isLt; omega
  funext j
  obtain ⟨p, q, rfl⟩ : ∃ (p : Fin 2000) (q : Fin 64), j = ix2 p q := ⟨j 0, j 1, eq_ix2 j⟩
  have hr : t.val * 2000 + p.val < 100000 := by have := p.isLt; omega
  have hE2 : ((cfg2.win 2).blk t).view.emb (ix2 p q) = (ix2 (⟨t.val * 2000 + p.val, hr⟩ : Fin 100000) q : S100000x64.Idx) := by
    funext a; apply Fin.ext
    match a with
    | ⟨0, _⟩ => show win2_2.index t (0 : Fin 2) * 2000 + 1 * p.val = t.val * 2000 + p.val; omega
    | ⟨1, _⟩ => show win2_2.index t (1 : Fin 2) * 64 + 1 * q.val = q.val; omega
  show k2_pay1 (iblk2 V c 0 t) (iblk2 V c 1 t) (ix2 p q)
    = matProd (M := 100000) (K := 64) (N := 64) (V c main_v46) (V c main_arg5) (((cfg2.win 2).blk t).view.emb (ix2 p q))
  rw [hE2, matProd_ix2]
  refine (stored_apply _ _ p q).trans (Finset.sum_congr rfl fun k _ => ?_)
  have hE0 : ((cfg2.win 0).blk t).view.emb (ix2 p k) = (ix2 (⟨t.val * 2000 + p.val, hr⟩ : Fin 100000) k : S100000x64.Idx) := by
    funext a; apply Fin.ext
    match a with
    | ⟨0, _⟩ => show win2_0.index t (0 : Fin 2) * 2000 + 1 * p.val = t.val * 2000 + p.val; omega
    | ⟨1, _⟩ => show win2_0.index t (1 : Fin 2) * 64 + 1 * k.val = k.val; omega
  have hE1 : ((cfg2.win 1).blk t).view.emb (ix2 k q) = (ix2 k q : S64x64.Idx) := by
    funext a; apply Fin.ext
    match a with
    | ⟨0, _⟩ => show win2_1.index t (0 : Fin 2) * 64 + 1 * k.val = k.val; omega
    | ⟨1, _⟩ => show win2_1.index t (1 : Fin 2) * 64 + 1 * q.val = q.val; omega
  exact congrArg₂ (fun (u v : EReal) => u * v) (congrArg (V c main_v46) hE0) (congrArg (V c main_arg5) hE1)

/-- An index of the output is in point t's block iff each coordinate is in the block's range on its axis. -/
theorem mem_blk (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v47).slice (win2_2.rect t)).set ↔ _
  rw [View.set_slice_whole, Rect.mem_set_unit]
  exact Iff.rfl

/-- Row r of the output is in the block of point r / 2000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 50 := N_2
  obtain ⟨t, ht⟩ : ∃ t : Fin cfg2.N, t.val = (i 0).val / 2000 := ⟨⟨(i 0).val / 2000, by omega⟩, rfl⟩
  obtain ⟨-, -, -, -, e20, e21⟩ := idx_facts t
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- After the launch the output array is the product of the two arrays as the launch found them. -/
theorem array_eq (c : Dev nD) :
    (dat2 V c).arrAt 2 cfg2.N = matProd (M := 100000) (K := 64) (N := 64) (V c main_v46) (V c main_arg5) :=
  (dat2 V c).arrAt_eq_of_cover 2 _ (fun t _ => flushed_eq V c t) cover

end

end Cert.KernelIdeal.Product2

end
-- ==== Proof.Product4.lean ====
/-
  Launch 4 of the idealized kernel: a product of [100000, 64] by [64, 5], computed 2000 rows at a time.

  Grid point t multiplies rows 2000 t … 2000 t + 1999 of the left array by the whole right array (the rounding of both
  operands to bf16 on the way into the matrix unit is the identity over the extended reals, and the accumulator starts at
  zero) and writes the 2000 result rows back to rows 2000 t … of the output. Entry (2000 t + p, q) of what is written is
  the sum over k of x (2000 t + p, k) * w (k, q): entry (2000 t + p, q) of the whole product. The fifty blocks tile the
  output, so after the launch the output array IS the product of the two arrays as the launch found them.
-/
import proofs.«167058_j34514357191054_1_alg».proof.Proof.Gen.KernelIdeal.Frame
import proofs.«167058_j34514357191054_1_alg».proof.Proof.LibRowsCols
import proofs.«167058_j34514357191054_1_alg».proof.Proof.Dense
import Idealize.ShloMosaic.Lib.Pipeline.Value
import Idealize.ShloMosaic.Lib.ValueIdx

set_option maxRecDepth 16384

noncomputable section

namespace Cert.KernelIdeal.Product4

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

/-! ## The matrix unit's operand indices -/

/-- The left operand is read in the output's row. -/
theorem lhs_row (j : S2000x5.Idx) (q : dot_S2000x64_S64x5_S2000x5_1_0_0_1_n_n.contr.Idx) :
    (dot_S2000x64_S64x5_S2000x5_1_0_0_1_n_n.lhsIdx j q 0).val = (j 0).val := by
  unfold DotDims.lhsIdx
  rw [dif_neg (show ¬(0 : Fin S2000x64.rank) ∈ dot_S2000x64_S64x5_S2000x5_1_0_0_1_n_n.lhsBatch by decide), dif_pos (show (0 : Fin S2000x64.rank) ∈ dot_S2000x64_S64x5_S2000x5_1_0_0_1_n_n.lhsNonContracting by decide)]
  rfl

/-- The right operand is read in the output's column. -/
theorem rhs_col (j : S2000x5.Idx) (q : dot_S2000x64_S64x5_S2000x5_1_0_0_1_n_n.contr.Idx) :
    (dot_S2000x64_S64x5_S2000x5_1_0_0_1_n_n.rhsIdx j q 1).val = (j 1).val := by
  unfold DotDims.rhsIdx
  rw [dif_neg (show ¬(1 : Fin S64x5.rank) ∈ dot_S2000x64_S64x5_S2000x5_1_0_0_1_n_n.rhsBatch by decide), dif_pos (show (1 : Fin S64x5.rank) ∈ dot_S2000x64_S64x5_S2000x5_1_0_0_1_n_n.rhsNonContracting by decide)]
  rfl

/-- What one grid point stores, at (p, q): the sum over k of the left block at (p, k) times the right block at (k, q). -/
theorem stored_apply (x0 : FVec Ideal S2000x64 .f32) (x1 : FVec Ideal S64x5 .f32) (p : Fin 2000) (q : Fin 5) :
    k4_pay1 x0 x1 (ix2 p q) = ∑ k : Fin 64, x0 (ix2 p k) * x1 (ix2 k q) := by
  unfold k4_pay1
  have e1 : ∀ h, shapeCast S2000x64 x0 h = x0 := fun h => shapeCast_self _ h
  show matmul dot_S2000x64_S64x5_S2000x5_1_0_0_1_n_n none (truncf .bf16 (shapeCast S2000x64 x0 _) _) (truncf .bf16 x1 _) (constant S2000x5 .f32 0x00000000#32) (ix2 p q) = _
  rw [e1]
  exact RowsCols.matmul_zero_apply dot_S2000x64_S64x5_S2000x5_1_0_0_1_n_n rfl rfl rfl rfl lhs_row rhs_col none _ _ p q

/-! ## The blocks -/

theorem hz : (![0, 0] : Fin 2 → Nat) = fun _ => 0 := funext fun a => by fin_cases a <;> rfl

/-- The index maps over the grid: the left array and the output move by row blocks, the right array stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

section
variable (V : (c : Dev nD) → (b : Ref sig .tc) → Buf (Elt Ideal) ((c : Thread nD τ).loc b))

/-- What point t writes back is block t of the product of the two arrays as the launch finds them. -/
theorem flushed_eq (c : Dev nD) (t : Fin cfg4.N) :
    (dat4 V c).flushed 2 t = ((cfg4.win 2).blk t).view.read (Elt Ideal)
      (matProd (M := 100000) (K := 64) (N := 5) (V c main_v89) (V c main_arg7)) := by
  show (cfg4.win 2).cut (grid4.coords t) ((dat4 V c).after 2 t) = _
  rw [after4_2]
  unfold out4_2
  rw [View.canon_unit_zero hz]
  simp only [View.ld_unit_zero (S := S2000x64) hz, View.ld_unit_zero (S := S64x5) hz]
  obtain ⟨e00, e01, e10, e11, e20, e21⟩ := idx_facts t
  have hN : cfg4.N = 50 := N_4
  have ht : t.val < 50 := by have := t.isLt; omega
  funext j
  obtain ⟨p, q, rfl⟩ : ∃ (p : Fin 2000) (q : Fin 5), j = ix2 p q := ⟨j 0, j 1, eq_ix2 j⟩
  have hr : t.val * 2000 + p.val < 100000 := by have := p.isLt; omega
  have hE2 : ((cfg4.win 2).blk t).view.emb (ix2 p q) = (ix2 (⟨t.val * 2000 + p.val, hr⟩ : Fin 100000) q : S100000x5.Idx) := by
    funext a; apply Fin.ext
    match a with
    | ⟨0, _⟩ => show win4_2.index t (0 : Fin 2) * 2000 + 1 * p.val = t.val * 2000 + p.val; omega
    | ⟨1, _⟩ => show win4_2.index t (1 : Fin 2) * 5 + 1 * q.val = q.val; omega
  show k4_pay1 (iblk4 V c 0 t) (iblk4 V c 1 t) (ix2 p q)
    = matProd (M := 100000) (K := 64) (N := 5) (V c main_v89) (V c main_arg7) (((cfg4.win 2).blk t).view.emb (ix2 p q))
  rw [hE2, matProd_ix2]
  refine (stored_apply _ _ p q).trans (Finset.sum_congr rfl fun k _ => ?_)
  have hE0 : ((cfg4.win 0).blk t).view.emb (ix2 p k) = (ix2 (⟨t.val * 2000 + p.val, hr⟩ : Fin 100000) k : S100000x64.Idx) := by
    funext a; apply Fin.ext
    match a with
    | ⟨0, _⟩ => show win4_0.index t (0 : Fin 2) * 2000 + 1 * p.val = t.val * 2000 + p.val; omega
    | ⟨1, _⟩ => show win4_0.index t (1 : Fin 2) * 64 + 1 * k.val = k.val; omega
  have hE1 : ((cfg4.win 1).blk t).view.emb (ix2 k q) = (ix2 k q : S64x5.Idx) := by
    funext a; apply Fin.ext
    match a with
    | ⟨0, _⟩ => show win4_1.index t (0 : Fin 2) * 64 + 1 * k.val = k.val; omega
    | ⟨1, _⟩ => show win4_1.index t (1 : Fin 2) * 5 + 1 * q.val = q.val; omega
  exact congrArg₂ (fun (u v : EReal) => u * v) (congrArg (V c main_v89) hE0) (congrArg (V c main_arg7) hE1)

/-- An index of the output is in point t's block iff each coordinate is in the block's range on its axis. -/
theorem mem_blk (t : Fin cfg4.N) (i : S100000x5.Idx) :
    i ∈ ((cfg4.win 2).blk t).view.set ↔ ∀ a : Fin 2, win4_2.index t a * S2000x5.size a ≤ (i a).val ∧ (i a).val < win4_2.index t a * S2000x5.size a + S2000x5.size a := by
  show i ∈ ((View.whole main_v90).slice (win4_2.rect t)).set ↔ _
  rw [View.set_slice_whole, Rect.mem_set_unit]
  exact Iff.rfl

/-- Row r of the output is in the block of point r / 2000. -/
theorem cover (i : S100000x5.Idx) : ∃ t : Fin cfg4.N, (cfg4.win 2).flush t = true ∧ i ∈ ((cfg4.win 2).blk t).view.set := by
  have hi0 : (i 0).val < 100000 := (i 0).isLt
  have hi1 : (i 1).val < 5 := (i 1).isLt
  have hN : cfg4.N = 50 := N_4
  obtain ⟨t, ht⟩ : ∃ t : Fin cfg4.N, t.val = (i 0).val / 2000 := ⟨⟨(i 0).val / 2000, by omega⟩, rfl⟩
  obtain ⟨-, -, -, -, e20, e21⟩ := idx_facts t
  refine ⟨t, flush4_2 t, ?_⟩
  rw [mem_blk]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 5 ≤ (i 1).val ∧ (i 1).val < win4_2.index t (1 : Fin 2) * 5 + 5; omega

/-- After the launch the output array is the product of the two arrays as the launch found them. -/
theorem array_eq (c : Dev nD) :
    (dat4 V c).arrAt 2 cfg4.N = matProd (M := 100000) (K := 64) (N := 5) (V c main_v89) (V c main_arg7) :=
  (dat4 V c).arrAt_eq_of_cover 2 _ (fun t _ => flushed_eq V c t) cover

end

end Cert.KernelIdeal.Product4

end
-- ==== Proof.Bias1.lean ====
/-
  Launch 1 of the idealized kernel: it adds the bias row to every row and floors the sum at zero, 2000 rows at a time.

  Grid point t reads rows 2000 t … 2000 t + 1999 of the [100000, 64] array and the whole [1, 64] bias row, and writes
  back 2000 rows whose entry (p, q) is max (t (2000 t + p, q) + b (0, q)) 0. The fifty blocks tile the output, so after the
  launch the output array is that function of the two arrays as the launch found them, entry by entry.
-/
import proofs.«167058_j34514357191054_1_alg».proof.Proof.Gen.KernelIdeal.Frame
import proofs.«167058_j34514357191054_1_alg».proof.Proof.Dense
import Idealize.ShloMosaic.Lib.Pipeline.Value
import Idealize.ShloMosaic.Lib.ValueIdx
import Idealize.ShloMosaic.Lib.ValueLayout

set_option maxRecDepth 16384

noncomputable section

namespace Cert.KernelIdeal.Bias1

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

/-- What one grid point stores, at (p, q), from its block of rows x0 and the bias row x1. -/
theorem stored_apply (x0 : Vec Ideal S2000x64 .f32) (x1 : Vec Ideal S1x64 .f32) (p : Fin 2000) (q : Fin 64) :
    k1_pay1 x0 x1 (ix2 p q) = max (x0 (ix2 p q) + x1 (ix2 (0 : Fin 1) q)) (Ideal.ofBits .f32 0x00000000#32) := by
  unfold k1_pay1
  have e1 : ∀ h, shapeCast S2000x64 x0 h = x0 := fun h => shapeCast_self _ h
  have e2 : ∀ h, shapeCast S1x64 x1 h = x1 := fun h => shapeCast_self _ h
  have e3 : ∀ h h', broadcastTo S2000x64 (shapeCast S1x64 x1 h) h' (ix2 p q) = x1 (ix2 (0 : Fin 1) q) := fun h h' => by
    rw [e2]; exact broadcastTo_1b_ab_apply x1 h' p q
  show max (shapeCast S2000x64 x0 _ (ix2 p q) + broadcastTo S2000x64 (shapeCast S1x64 x1 _) _ (ix2 p q)) _ = _
  rw [e1, e3]
  rfl

theorem hz : (![0, 0] : Fin 2 → Nat) = fun _ => 0 := funext fun a => by fin_cases a <;> rfl

/-- The index maps over the grid: the array and the output move by row blocks, the bias row stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- What point t writes back is block t of that function of the two arrays as the launch finds them. -/
theorem flushed_eq (c : Dev nD) (t : Fin cfg1.N) :
    (dat1 V c).flushed 2 t = ((cfg1.win 2).blk t).view.read (Elt Ideal)
      (addRowFloor (M := 100000) (N := 64) (V c main_v44) (V c main_v45)) := by
  show (cfg1.win 2).cut (grid1.coords t) ((dat1 V c).after 2 t) = _
  rw [after1_2]
  unfold out1_2
  rw [View.canon_unit_zero hz]
  simp only [View.ld_unit_zero (S := S2000x64) hz, View.ld_unit_zero (S := S1x64) hz]
  obtain ⟨e00, e01, e10, e11, e20, e21⟩ := idx_facts t
  have hN : cfg1.N = 50 := N_1
  have ht : t.val < 50 := by have := t.isLt; omega
  funext j
  obtain ⟨p, q, rfl⟩ : ∃ (p : Fin 2000) (q : Fin 64), j = ix2 p q := ⟨j 0, j 1, eq_ix2 j⟩
  have hr : t.val * 2000 + p.val < 100000 := by have := p.isLt; omega
  have hE2 : ((cfg1.win 2).blk t).view.emb (ix2 p q) = (ix2 (⟨t.val * 2000 + p.val, hr⟩ : Fin 100000) q : S100000x64.Idx) := by
    funext a; apply Fin.ext
    match a with
    | ⟨0, _⟩ => show win1_2.index t (0 : Fin 2) * 2000 + 1 * p.val = t.val * 2000 + p.val; omega
    | ⟨1, _⟩ => show win1_2.index t (1 : Fin 2) * 64 + 1 * q.val = q.val; omega
  have hE0 : ((cfg1.win 0).blk t).view.emb (ix2 p q) = (ix2 (⟨t.val * 2000 + p.val, hr⟩ : Fin 100000) q : S100000x64.Idx) := by
    funext a; apply Fin.ext
    match a with
    | ⟨0, _⟩ => show win1_0.index t (0 : Fin 2) * 2000 + 1 * p.val = t.val * 2000 + p.val; omega
    | ⟨1, _⟩ => show win1_0.index t (1 : Fin 2) * 64 + 1 * q.val = q.val; omega
  have hE1 : ((cfg1.win 1).blk t).view.emb (ix2 (0 : Fin 1) q) = (ix2 (0 : Fin 1) q : S1x64.Idx) := by
    funext a; apply Fin.ext
    match a with
    | ⟨0, _⟩ => show win1_1.index t (0 : Fin 2) * 1 + 1 * 0 = 0; omega
    | ⟨1, _⟩ => show win1_1.index t (1 : Fin 2) * 64 + 1 * q.val = q.val; omega
  show k1_pay1 (iblk1 V c 0 t) (iblk1 V c 1 t) (ix2 p q)
    = addRowFloor (M := 100000) (N := 64) (V c main_v44) (V c main_v45) (((cfg1.win 2).blk t).view.emb (ix2 p q))
  rw [hE2, addRowFloor_ix2]
  refine (stored_apply _ _ p q).trans ?_
  exact congrArg₂ (fun (u v : EReal) => max (u + v) (Ideal.ofBits .f32 0x00000000#32)) (congrArg (V c main_v44) hE0) (congrArg (V c main_v45) hE1)

/-- An index of the output is in point t's block iff each coordinate is in the block's range on its axis. -/
theorem mem_blk (t : Fin cfg1.N) (i : S100000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v46).slice (win1_2.rect t)).set ↔ _
  rw [View.set_slice_whole, Rect.mem_set_unit]
  exact Iff.rfl

/-- Row r of the output is in the block of point r / 2000. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 50 := N_1
  obtain ⟨t, ht⟩ : ∃ t : Fin cfg1.N, t.val = (i 0).val / 2000 := ⟨⟨(i 0).val / 2000, by omega⟩, rfl⟩
  obtain ⟨-, -, -, -, e20, e21⟩ := idx_facts t
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 64 ≤ (i 1).val ∧ (i 1).val < win1_2.index t (1 : Fin 2) * 64 + 64; omega

/-- After the launch the output array is that function of the two arrays as the launch found them. -/
theorem array_eq (c : Dev nD) :
    (dat1 V c).arrAt 2 cfg1.N = addRowFloor (M := 100000) (N := 64) (V c main_v44) (V c main_v45) :=
  (dat1 V c).arrAt_eq_of_cover 2 _ (fun t _ => flushed_eq V c t) cover

end

end Cert.KernelIdeal.Bias1

end
-- ==== Proof.Bias3.lean ====
/-
  Launch 3 of the idealized kernel: it adds the bias row to every row and floors the sum at zero, 2000 rows at a time.

  Grid point t reads rows 2000 t … 2000 t + 1999 of the [100000, 64] array and the whole [1, 64] bias row, and writes
  back 2000 rows whose entry (p, q) is max (t (2000 t + p, q) + b (0, q)) 0. The fifty blocks tile the output, so after the
  launch the output array is that function of the two arrays as the launch found them, entry by entry.
-/
import proofs.«167058_j34514357191054_1_alg».proof.Proof.Gen.KernelIdeal.Frame
import proofs.«167058_j34514357191054_1_alg».proof.Proof.Dense
import Idealize.ShloMosaic.Lib.Pipeline.Value
import Idealize.ShloMosaic.Lib.ValueIdx
import Idealize.ShloMosaic.Lib.ValueLayout

set_option maxRecDepth 16384

noncomputable section

namespace Cert.KernelIdeal.Bias3

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

/-- What one grid point stores, at (p, q), from its block of rows x0 and the bias row x1. -/
theorem stored_apply (x0 : Vec Ideal S2000x64 .f32) (x1 : Vec Ideal S1x64 .f32) (p : Fin 2000) (q : Fin 64) :
    k3_pay1 x0 x1 (ix2 p q) = max (x0 (ix2 p q) + x1 (ix2 (0 : Fin 1) q)) (Ideal.ofBits .f32 0x00000000#32) := by
  unfold k3_pay1
  have e1 : ∀ h, shapeCast S2000x64 x0 h = x0 := fun h => shapeCast_self _ h
  have e2 : ∀ h, shapeCast S1x64 x1 h = x1 := fun h => shapeCast_self _ h
  have e3 : ∀ h h', broadcastTo S2000x64 (shapeCast S1x64 x1 h) h' (ix2 p q) = x1 (ix2 (0 : Fin 1) q) := fun h h' => by
    rw [e2]; exact broadcastTo_1b_ab_apply x1 h' p q
  show max (shapeCast S2000x64 x0 _ (ix2 p q) + broadcastTo S2000x64 (shapeCast S1x64 x1 _) _ (ix2 p q)) _ = _
  rw [e1, e3]
  rfl

theorem hz : (![0, 0] : Fin 2 → Nat) = fun _ => 0 := funext fun a => by fin_cases a <;> rfl

/-- The index maps over the grid: the array and the output move by row blocks, the bias row stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

section
variable (V : (c : Dev nD) → (b : Ref sig .tc) → Buf (Elt Ideal) ((c : Thread nD τ).loc b))

/-- What point t writes back is block t of that function of the two arrays as the launch finds them. -/
theorem flushed_eq (c : Dev nD) (t : Fin cfg3.N) :
    (dat3 V c).flushed 2 t = ((cfg3.win 2).blk t).view.read (Elt Ideal)
      (addRowFloor (M := 100000) (N := 64) (V c main_v87) (V c main_v88)) := by
  show (cfg3.win 2).cut (grid3.coords t) ((dat3 V c).after 2 t) = _
  rw [after3_2]
  unfold out3_2
  rw [View.canon_unit_zero hz]
  simp only [View.ld_unit_zero (S := S2000x64) hz, View.ld_unit_zero (S := S1x64) hz]
  obtain ⟨e00, e01, e10, e11, e20, e21⟩ := idx_facts t
  have hN : cfg3.N = 50 := N_3
  have ht : t.val < 50 := by have := t.isLt; omega
  funext j
  obtain ⟨p, q, rfl⟩ : ∃ (p : Fin 2000) (q : Fin 64), j = ix2 p q := ⟨j 0, j 1, eq_ix2 j⟩
  have hr : t.val * 2000 + p.val < 100000 := by have := p.isLt; omega
  have hE2 : ((cfg3.win 2).blk t).view.emb (ix2 p q) = (ix2 (⟨t.val * 2000 + p.val, hr⟩ : Fin 100000) q : S100000x64.Idx) := by
    funext a; apply Fin.ext
    match a with
    | ⟨0, _⟩ => show win3_2.index t (0 : Fin 2) * 2000 + 1 * p.val = t.val * 2000 + p.val; omega
    | ⟨1, _⟩ => show win3_2.index t (1 : Fin 2) * 64 + 1 * q.val = q.val; omega
  have hE0 : ((cfg3.win 0).blk t).view.emb (ix2 p q) = (ix2 (⟨t.val * 2000 + p.val, hr⟩ : Fin 100000) q : S100000x64.Idx) := by
    funext a; apply Fin.ext
    match a with
    | ⟨0, _⟩ => show win3_0.index t (0 : Fin 2) * 2000 + 1 * p.val = t.val * 2000 + p.val; omega
    | ⟨1, _⟩ => show win3_0.index t (1 : Fin 2) * 64 + 1 * q.val = q.val; omega
  have hE1 : ((cfg3.win 1).blk t).view.emb (ix2 (0 : Fin 1) q) = (ix2 (0 : Fin 1) q : S1x64.Idx) := by
    funext a; apply Fin.ext
    match a with
    | ⟨0, _⟩ => show win3_1.index t (0 : Fin 2) * 1 + 1 * 0 = 0; omega
    | ⟨1, _⟩ => show win3_1.index t (1 : Fin 2) * 64 + 1 * q.val = q.val; omega
  show k3_pay1 (iblk3 V c 0 t) (iblk3 V c 1 t) (ix2 p q)
    = addRowFloor (M := 100000) (N := 64) (V c main_v87) (V c main_v88) (((cfg3.win 2).blk t).view.emb (ix2 p q))
  rw [hE2, addRowFloor_ix2]
  refine (stored_apply _ _ p q).trans ?_
  exact congrArg₂ (fun (u v : EReal) => max (u + v) (Ideal.ofBits .f32 0x00000000#32)) (congrArg (V c main_v87) hE0) (congrArg (V c main_v88) hE1)

/-- An index of the output is in point t's block iff each coordinate is in the block's range on its axis. -/
theorem mem_blk (t : Fin cfg3.N) (i : S100000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v89).slice (win3_2.rect t)).set ↔ _
  rw [View.set_slice_whole, Rect.mem_set_unit]
  exact Iff.rfl

/-- Row r of the output is in the block of point r / 2000. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 50 := N_3
  obtain ⟨t, ht⟩ : ∃ t : Fin cfg3.N, t.val = (i 0).val / 2000 := ⟨⟨(i 0).val / 2000, by omega⟩, rfl⟩
  obtain ⟨-, -, -, -, e20, e21⟩ := idx_facts t
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 64 ≤ (i 1).val ∧ (i 1).val < win3_2.index t (1 : Fin 2) * 64 + 64; omega

/-- After the launch the output array is that function of the two arrays as the launch found them. -/
theorem array_eq (c : Dev nD) :
    (dat3 V c).arrAt 2 cfg3.N = addRowFloor (M := 100000) (N := 64) (V c main_v87) (V c main_v88) :=
  (dat3 V c).arrAt_eq_of_cover 2 _ (fun t _ => flushed_eq V c t) cover

end

end Cert.KernelIdeal.Bias3

end
-- ==== Proof.Bias5.lean ====
/-
  Launch 5 of the idealized kernel: it adds the bias row to every row, 2000 rows at a time.

  Grid point t reads rows 2000 t … 2000 t + 1999 of the [100000, 5] array and the whole [1, 5] bias row, and writes
  back 2000 rows whose entry (p, q) is t (2000 t + p, q) + b (0, q). The fifty blocks tile the output, so after the
  launch the output array is that function of the two arrays as the launch found them, entry by entry.
-/
import proofs.«167058_j34514357191054_1_alg».proof.Proof.Gen.KernelIdeal.Frame
import proofs.«167058_j34514357191054_1_alg».proof.Proof.Dense
import Idealize.ShloMosaic.Lib.Pipeline.Value
import Idealize.ShloMosaic.Lib.ValueIdx
import Idealize.ShloMosaic.Lib.ValueLayout

set_option maxRecDepth 16384

noncomputable section

namespace Cert.KernelIdeal.Bias5

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

/-- What one grid point stores, at (p, q), from its block of rows x0 and the bias row x1. -/
theorem stored_apply (x0 : Vec Ideal S2000x5 .f32) (x1 : Vec Ideal S1x5 .f32) (p : Fin 2000) (q : Fin 5) :
    k5_pay1 x0 x1 (ix2 p q) = x0 (ix2 p q) + x1 (ix2 (0 : Fin 1) q) := by
  unfold k5_pay1
  have e1 : ∀ h, shapeCast S2000x5 x0 h = x0 := fun h => shapeCast_self _ h
  have e2 : ∀ h, shapeCast S1x5 x1 h = x1 := fun h => shapeCast_self _ h
  have e3 : ∀ h h', broadcastTo S2000x5 (shapeCast S1x5 x1 h) h' (ix2 p q) = x1 (ix2 (0 : Fin 1) q) := fun h h' => by
    rw [e2]; exact broadcastTo_1b_ab_apply x1 h' p q
  show shapeCast S2000x5 x0 _ (ix2 p q) + broadcastTo S2000x5 (shapeCast S1x5 x1 _) _ (ix2 p q) = _
  rw [e1, e3]

theorem hz : (![0, 0] : Fin 2 → Nat) = fun _ => 0 := funext fun a => by fin_cases a <;> rfl

/-- The index maps over the grid: the array and the output move by row blocks, the bias row stays. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

section
variable (V : (c : Dev nD) → (b : Ref sig .tc) → Buf (Elt Ideal) ((c : Thread nD τ).loc b))

/-- What point t writes back is block t of that function of the two arrays as the launch finds them. -/
theorem flushed_eq (c : Dev nD) (t : Fin cfg5.N) :
    (dat5 V c).flushed 2 t = ((cfg5.win 2).blk t).view.read (Elt Ideal)
      (addRow (M := 100000) (N := 5) (V c main_v90) (V c main_v91)) := by
  show (cfg5.win 2).cut (grid5.coords t) ((dat5 V c).after 2 t) = _
  rw [after5_2]
  unfold out5_2
  rw [View.canon_unit_zero hz]
  simp only [View.ld_unit_zero (S := S2000x5) hz, View.ld_unit_zero (S := S1x5) hz]
  obtain ⟨e00, e01, e10, e11, e20, e21⟩ := idx_facts t
  have hN : cfg5.N = 50 := N_5
  have ht : t.val < 50 := by have := t.isLt; omega
  funext j
  obtain ⟨p, q, rfl⟩ : ∃ (p : Fin 2000) (q : Fin 5), j = ix2 p q := ⟨j 0, j 1, eq_ix2 j⟩
  have hr : t.val * 2000 + p.val < 100000 := by have := p.isLt; omega
  have hE2 : ((cfg5.win 2).blk t).view.emb (ix2 p q) = (ix2 (⟨t.val * 2000 + p.val, hr⟩ : Fin 100000) q : S100000x5.Idx) := by
    funext a; apply Fin.ext
    match a with
    | ⟨0, _⟩ => show win5_2.index t (0 : Fin 2) * 2000 + 1 * p.val = t.val * 2000 + p.val; omega
    | ⟨1, _⟩ => show win5_2.index t (1 : Fin 2) * 5 + 1 * q.val = q.val; omega
  have hE0 : ((cfg5.win 0).blk t).view.emb (ix2 p q) = (ix2 (⟨t.val * 2000 + p.val, hr⟩ : Fin 100000) q : S100000x5.Idx) := by
    funext a; apply Fin.ext
    match a with
    | ⟨0, _⟩ => show win5_0.index t (0 : Fin 2) * 2000 + 1 * p.val = t.val * 2000 + p.val; omega
    | ⟨1, _⟩ => show win5_0.index t (1 : Fin 2) * 5 + 1 * q.val = q.val; omega
  have hE1 : ((cfg5.win 1).blk t).view.emb (ix2 (0 : Fin 1) q) = (ix2 (0 : Fin 1) q : S1x5.Idx) := by
    funext a; apply Fin.ext
    match a with
    | ⟨0, _⟩ => show win5_1.index t (0 : Fin 2) * 1 + 1 * 0 = 0; omega
    | ⟨1, _⟩ => show win5_1.index t (1 : Fin 2) * 5 + 1 * q.val = q.val; omega
  show k5_pay1 (iblk5 V c 0 t) (iblk5 V c 1 t) (ix2 p q)
    = addRow (M := 100000) (N := 5) (V c main_v90) (V c main_v91) (((cfg5.win 2).blk t).view.emb (ix2 p q))
  rw [hE2, addRow_ix2]
  refine (stored_apply _ _ p q).trans ?_
  exact congrArg₂ (fun (u v : EReal) => u + v) (congrArg (V c main_v90) hE0) (congrArg (V c main_v91) hE1)

/-- An index of the output is in point t's block iff each coordinate is in the block's range on its axis. -/
theorem mem_blk (t : Fin cfg5.N) (i : S100000x5.Idx) :
    i ∈ ((cfg5.win 2).blk t).view.set ↔ ∀ a : Fin 2, win5_2.index t a * S2000x5.size a ≤ (i a).val ∧ (i a).val < win5_2.index t a * S2000x5.size a + S2000x5.size a := by
  show i ∈ ((View.whole main_v92).slice (win5_2.rect t)).set ↔ _
  rw [View.set_slice_whole, Rect.mem_set_unit]
  exact Iff.rfl

/-- Row r of the output is in the block of point r / 2000. -/
theorem cover (i : S100000x5.Idx) : ∃ t : Fin cfg5.N, (cfg5.win 2).flush t = true ∧ i ∈ ((cfg5.win 2).blk t).view.set := by
  have hi0 : (i 0).val < 100000 := (i 0).isLt
  have hi1 : (i 1).val < 5 := (i 1).isLt
  have hN : cfg5.N = 50 := N_5
  obtain ⟨t, ht⟩ : ∃ t : Fin cfg5.N, t.val = (i 0).val / 2000 := ⟨⟨(i 0).val / 2000, by omega⟩, rfl⟩
  obtain ⟨-, -, -, -, e20, e21⟩ := idx_facts t
  refine ⟨t, flush5_2 t, ?_⟩
  rw [mem_blk]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 5 ≤ (i 1).val ∧ (i 1).val < win5_2.index t (1 : Fin 2) * 5 + 5; omega

/-- After the launch the output array is that function of the two arrays as the launch found them. -/
theorem array_eq (c : Dev nD) :
    (dat5 V c).arrAt 2 cfg5.N = addRow (M := 100000) (N := 5) (V c main_v90) (V c main_v91) :=
  (dat5 V c).arrAt_eq_of_cover 2 _ (fun t _ => flushed_eq V c t) cover

end

end Cert.KernelIdeal.Bias5

end
-- ==== Proof.Aggregate.lean ====
/-
  The neighbourhood aggregation of a graph convolution with weighted edges and unit self loops, as one function of
  the node features.

  For edges e = (src e, dst e) with weights w e over n nodes:
    deg v      = 1 + sum of w e over the edges e with dst e = v
    s v        = deg v ^ (-1/2)
    norm e     = s (src e) * w e * s (dst e)
    (aggr h) v = sum over the edges e with dst e = v of norm e * h (src e)   +   (s v * s v) * h v
  The node indices are first moved into range in the usual array-indexing way (a negative index counts from the end). Both programs compute
  this with the same host operations in the same order; it is stated here once, as the composition of those
  operations, so that neither side has to look inside a gather or a scatter-add: the two sides only have to agree on
  the features h going in.
-/
import proofs.«167058_j34514357191054_1_alg».proof.Proof.Gen.ReferenceIdeal

noncomputable section

namespace Cert.Gcn

open Idealize.ShloMosaic Cert.ReferenceIdeal Cert.ReferenceIdeal.Gen

variable {F : FTy → Type} [FloatOps F]

/-- A node index per edge, a negative one counted from the end (index + 100000), with a trailing unit axis: the form the
    gathers and scatter-adds take their indices in. -/
def wrapIdx (e : (⟨S3200000, .i32⟩ : BufTy).Contents (Elt F)) : (⟨S3200000x1, .i32⟩ : BufTy).Contents (Elt F) :=
  broadcastInDim S3200000x1 ![0] bcast_S3200000_S3200000x1_0
    (select (cmpi .slt e (broadcastInDim S3200000 ![] bcast_S_S3200000 (constantI S_ 32 0#32)))
      (addi e (broadcastInDim S3200000 ![] bcast_S_S3200000 (constantI S_ 32 100000#32))) e)

/-- s v = (1 + sum of the weights of the edges into v) ^ (-1/2). -/
def invSqrtDeg (dst : (⟨S3200000, .i32⟩ : BufTy).Contents (Elt F)) (w : (⟨S3200000, .f32⟩ : BufTy).Contents (Elt F)) :
    (⟨S100000, .f32⟩ : BufTy).Contents (Elt F) :=
  Host.rsqrt (addf
    (Host.scatterAdd scatter_S100000_S3200000x1_S3200000_n_0_0_1
      (broadcastInDim S100000 ![] bcast_S_S100000 (constant (F := F) S_ .f32 0x00000000#32))
      (broadcastInDim S3200000x1 ![0] bcast_S3200000_S3200000x1_0 dst) w)
    (broadcastInDim S100000 ![] bcast_S_S100000 (constant (F := F) S_ .f32 0x3F800000#32)))

/-- norm e = s (src e) * w e * s (dst e). -/
def edgeNorm (src dst : (⟨S3200000, .i32⟩ : BufTy).Contents (Elt F)) (w : (⟨S3200000, .f32⟩ : BufTy).Contents (Elt F)) :
    (⟨S3200000, .f32⟩ : BufTy).Contents (Elt F) :=
  mulf (mulf (Host.gather gather_S100000_S3200000x1_S3200000_n_0_n_n_0_1_1 (invSqrtDeg dst w) (wrapIdx src)) w)
    (Host.gather gather_S100000_S3200000x1_S3200000_n_0_n_n_0_1_1 (invSqrtDeg dst w) (wrapIdx dst))

/-- The aggregation: the messages norm e * h (src e) added up at their destinations, plus the self loop's s v * s v * h v. -/
def aggr (h : (⟨S100000x64, .f32⟩ : BufTy).Contents (Elt F)) (src dst : (⟨S3200000, .i32⟩ : BufTy).Contents (Elt F))
    (w : (⟨S3200000, .f32⟩ : BufTy).Contents (Elt F)) : (⟨S100000x64, .f32⟩ : BufTy).Contents (Elt F) :=
  addf
    (Host.scatterAdd scatter_S100000x64_S3200000x1_S3200000x64_1_0_0_1
      (broadcastInDim S100000x64 ![] bcast_S_S100000x64 (constant (F := F) S_ .f32 0x00000000#32))
      (broadcastInDim S3200000x1 ![0] bcast_S3200000_S3200000x1_0 dst)
      (mulf
        (broadcastInDim S3200000x64 ![0, 1] bcast_S3200000x1_S3200000x64_0_1
          (broadcastInDim S3200000x1 ![0] bcast_S3200000_S3200000x1_0 (edgeNorm src dst w)))
        (Host.gather gather_S100000x64_S3200000x1_S3200000x64_1_0_n_n_0_1_164 h (wrapIdx src))))
    (mulf
      (broadcastInDim S100000x64 ![0, 1] bcast_S100000x1_S100000x64_0_1
        (broadcastInDim S100000x1 ![0] bcast_S100000_S100000x1_0 (mulf (invSqrtDeg dst w) (invSqrtDeg dst w))))
      h)

/-- The source and the destination row of the edge list [2, E]. -/
def edgeRow0 (ei : (⟨S2x3200000, .i32⟩ : BufTy).Contents (Elt F)) : (⟨S3200000, .i32⟩ : BufTy).Contents (Elt F) :=
  shapeCast _ (extractStridedSlice S1x3200000 ![0, 0] ei slices_S2x3200000_S1x3200000_0_0) shapeCasts_S1x3200000_S3200000
def edgeRow1 (ei : (⟨S2x3200000, .i32⟩ : BufTy).Contents (Elt F)) : (⟨S3200000, .i32⟩ : BufTy).Contents (Elt F) :=
  shapeCast _ (extractStridedSlice S1x3200000 ![1, 0] ei slices_S2x3200000_S1x3200000_1_0) shapeCasts_S1x3200000_S3200000

end Cert.Gcn

end
-- ==== Proof.Glue.lean ====
/-
  The host operations between the kernel's launches, read as functions of the buffers they start from.

  Before the first launch the edge list is split into its source and destination rows. Between the first product and the
  first bias launch, and again between the second product and the second bias launch, the program aggregates the
  product over the graph (the same fifty operations both times) and gives the bias a leading unit axis. Before the last
  bias launch the last bias gets its unit axis. Each stretch's result is the composition of its operations applied to
  the contents it starts from, whatever those are.
-/
import proofs.«167058_j34514357191054_1_alg».proof.Proof.Gen.KernelIdeal.Launch
import proofs.«167058_j34514357191054_1_alg».proof.Proof.Aggregate
import Idealize.ShloMosaic.Lib.StableHlo.Run

set_option maxRecDepth 16384

noncomputable section

namespace Cert.KernelIdeal.Glue

open Cert.KernelIdeal Cert.KernelIdeal.Gen Cert.Gcn
open Idealize.ShloMosaic Idealize.ShloMosaic.TcCoe Idealize.SL.Sem Idealize.ShloMosaic.StableHlo

variable {F : FTy → Type} [FloatOps F]

/-- The first stretch leaves the edge list's source row in its buffer. -/
theorem split_src (W : Valuation τ sig (Elt F)) :
    StableHlo.after hostOps0 W (Proc.devRef .tc main_v1) = edgeRow0 (F := F) (W (Proc.devRef .tc main_arg1)) := by
  after_results; rfl

/-- The first stretch leaves the edge list's destination row in its buffer. -/
theorem split_dst (W : Valuation τ sig (Elt F)) :
    StableHlo.after hostOps0 W (Proc.devRef .tc main_v3) = edgeRow1 (F := F) (W (Proc.devRef .tc main_arg1)) := by
  after_results; rfl

set_option maxHeartbeats 4000000 in
/-- The second stretch aggregates the first product over the graph. -/
theorem aggregate1 (W : Valuation τ sig (Elt F)) :
    StableHlo.after hostOps1 W (Proc.devRef .tc main_v44)
      = aggr (F := F) (W (Proc.devRef .tc main_v4)) (W (Proc.devRef .tc main_v1)) (W (Proc.devRef .tc main_v3)) (W (Proc.devRef .tc main_arg2)) := by
  after_results_simp; rfl

set_option maxHeartbeats 4000000 in
/-- and gives the first bias a leading unit axis. -/
theorem bias_row1 (W : Valuation τ sig (Elt F)) :
    StableHlo.after hostOps1 W (Proc.devRef .tc main_v45) = shapeCast S1x64 (W (Proc.devRef .tc main_arg4)) shapeCasts_S64_S1x64 := by
  after_results_simp; rfl

set_option maxHeartbeats 4000000 in
/-- The third stretch aggregates the second product over the graph. -/
theorem aggregate2 (W : Valuation τ sig (Elt F)) :
    StableHlo.after hostOps3 W (Proc.devRef .tc main_v87)
      = aggr (F := F) (W (Proc.devRef .tc main_v47)) (W (Proc.devRef .tc main_v1)) (W (Proc.devRef .tc main_v3)) (W (Proc.devRef .tc main_arg2)) := by
  after_results_simp; rfl

set_option maxHeartbeats 4000000 in
/-- and gives the second bias a leading unit axis. -/
theorem bias_row2 (W : Valuation τ sig (Elt F)) :
    StableHlo.after hostOps3 W (Proc.devRef .tc main_v88) = shapeCast S1x64 (W (Proc.devRef .tc main_arg6)) shapeCasts_S64_S1x64 := by
  after_results_simp; rfl

/-- The last stretch gives the last bias a leading unit axis. -/
theorem bias_row3 (W : Valuation τ sig (Elt F)) :
    StableHlo.after hostOps5 W (Proc.devRef .tc main_v91) = shapeCast S1x5 (W (Proc.devRef .tc main_arg8)) shapeCasts_S5_S1x5 := by
  after_results; rfl

end Cert.KernelIdeal.Glue

end
-- ==== Proof.Keeps.lean ====
/-
  What the host operations between the launches leave alone.

  A stretch of host operations changes only the buffers its operations write: every other buffer holds after the stretch
  what it held before. Listed here for the buffers a later launch or stretch reads: the arguments, the two rows of the
  edge list, and the last product.
-/
import proofs.«167058_j34514357191054_1_alg».proof.Proof.Gen.KernelIdeal.Launch
import Idealize.ShloMosaic.Lib.StableHlo.Run

set_option maxRecDepth 16384

noncomputable section

namespace Cert.KernelIdeal.Keeps

open Cert.KernelIdeal Cert.KernelIdeal.Gen
open Idealize.ShloMosaic Idealize.ShloMosaic.TcCoe Idealize.SL.Sem Idealize.ShloMosaic.StableHlo

variable {F : FTy → Type} [FloatOps F]

theorem keep0_main_arg0 (W : Valuation τ sig (Elt F)) :
    StableHlo.after hostOps0 W (Proc.devRef .tc main_arg0) = W (Proc.devRef .tc main_arg0) := by
  after_results_simp

theorem keep0_main_arg2 (W : Valuation τ sig (Elt F)) :
    StableHlo.after hostOps0 W (Proc.devRef .tc main_arg2) = W (Proc.devRef .tc main_arg2) := by
  after_results_simp

theorem keep0_main_arg3 (W : Valuation τ sig (Elt F)) :
    StableHlo.after hostOps0 W (Proc.devRef .tc main_arg3) = W (Proc.devRef .tc main_arg3) := by
  after_results_simp

theorem keep0_main_arg4 (W : Valuation τ sig (Elt F)) :
    StableHlo.after hostOps0 W (Proc.devRef .tc main_arg4) = W (Proc.devRef .tc main_arg4) := by
  after_results_simp

theorem keep0_main_arg5 (W : Valuation τ sig (Elt F)) :
    StableHlo.after hostOps0 W (Proc.devRef .tc main_arg5) = W (Proc.devRef .tc main_arg5) := by
  after_results_simp

theorem keep0_main_arg6 (W : Valuation τ sig (Elt F)) :
    StableHlo.after hostOps0 W (Proc.devRef .tc main_arg6) = W (Proc.devRef .tc main_arg6) := by
  after_results_simp

theorem keep0_main_arg7 (W : Valuation τ sig (Elt F)) :
    StableHlo.after hostOps0 W (Proc.devRef .tc main_arg7) = W (Proc.devRef .tc main_arg7) := by
  after_results_simp

theorem keep0_main_arg8 (W : Valuation τ sig (Elt F)) :
    StableHlo.after hostOps0 W (Proc.devRef .tc main_arg8) = W (Proc.devRef .tc main_arg8) := by
  after_results_simp

set_option maxHeartbeats 4000000 in
theorem keep1_main_v1 (W : Valuation τ sig (Elt F)) :
    StableHlo.after hostOps1 W (Proc.devRef .tc main_v1) = W (Proc.devRef .tc main_v1) := by
  after_results_simp

set_option maxHeartbeats 4000000 in
theorem keep1_main_v3 (W : Valuation τ sig (Elt F)) :
    StableHlo.after hostOps1 W (Proc.devRef .tc main_v3) = W (Proc.devRef .tc main_v3) := by
  after_results_simp

set_option maxHeartbeats 4000000 in
theorem keep1_main_arg2 (W : Valuation τ sig (Elt F)) :
    StableHlo.after hostOps1 W (Proc.devRef .tc main_arg2) = W (Proc.devRef .tc main_arg2) := by
  after_results_simp

set_option maxHeartbeats 4000000 in
theorem keep1_main_arg5 (W : Valuation τ sig (Elt F)) :
    StableHlo.after hostOps1 W (Proc.devRef .tc main_arg5) = W (Proc.devRef .tc main_arg5) := by
  after_results_simp

set_option maxHeartbeats 4000000 in
theorem keep1_main_arg6 (W : Valuation τ sig (Elt F)) :
    StableHlo.after hostOps1 W (Proc.devRef .tc main_arg6) = W (Proc.devRef .tc main_arg6) := by
  after_results_simp

set_option maxHeartbeats 4000000 in
theorem keep1_main_arg7 (W : Valuation τ sig (Elt F)) :
    StableHlo.after hostOps1 W (Proc.devRef .tc main_arg7) = W (Proc.devRef .tc main_arg7) := by
  after_results_simp

set_option maxHeartbeats 4000000 in
theorem keep1_main_arg8 (W : Valuation τ sig (Elt F)) :
    StableHlo.after hostOps1 W (Proc.devRef .tc main_arg8) = W (Proc.devRef .tc main_arg8) := by
  after_results_simp

set_option maxHeartbeats 4000000 in
theorem keep3_main_arg7 (W : Valuation τ sig (Elt F)) :
    StableHlo.after hostOps3 W (Proc.devRef .tc main_arg7) = W (Proc.devRef .tc main_arg7) := by
  after_results_simp

set_option maxHeartbeats 4000000 in
theorem keep3_main_arg8 (W : Valuation τ sig (Elt F)) :
    StableHlo.after hostOps3 W (Proc.devRef .tc main_arg8) = W (Proc.devRef .tc main_arg8) := by
  after_results_simp

theorem keep5_main_v90 (W : Valuation τ sig (Elt F)) :
    StableHlo.after hostOps5 W (Proc.devRef .tc main_v90) = W (Proc.devRef .tc main_v90) := by
  after_results_simp

end Cert.KernelIdeal.Keeps

end
-- ==== Proof.Model.lean ====
/-
  The network as one function of its nine arguments, over the extended reals.

  Two graph-convolution layers and a final affine map:
    h1  = max (aggr (x · W1) + b1) 0
    h2  = max (aggr (h1 · W2) + b2) 0
    out = h2 · Wf + bf
  where · is the matrix product, a bias is added to every row, and aggr is the normalised neighbourhood aggregation
  along the edge list. Both programs are shown to compute this function.
-/
import proofs.«167058_j34514357191054_1_alg».proof.Proof.Aggregate
import proofs.«167058_j34514357191054_1_alg».proof.Proof.Dense
import Idealize.ShloMosaic.Lib.ValueLayout

noncomputable section

namespace Cert.Gcn

open Idealize.ShloMosaic Idealize.ShloMosaic.ValueIdx Cert.ReferenceIdeal

/-- A vector [n] as the one row of a [1, n] array. -/
def rowOf {n : Nat} (b : FVec Ideal ⟨1, ![n]⟩ .f32) : FVec Ideal ⟨2, ![1, n]⟩ .f32 :=
  fun i => b (ix1 (⟨(i 1).val, idx2_lt1 i⟩ : Fin n))

theorem rowOf_ix2 {n : Nat} (b : FVec Ideal ⟨1, ![n]⟩ .f32) (u : Fin 1) (a : Fin n) : rowOf b (ix2 u a) = b (ix1 a) := rfl

/-- Giving a vector a leading unit axis makes it that one row. -/
theorem shapeCast_eq_rowOf {n : Nat} (b : FVec Ideal ⟨1, ![n]⟩ .f32) (h : (⟨1, ![n]⟩ : Shape).ShapeCasts ⟨2, ![1, n]⟩) :
    shapeCast ⟨2, ![1, n]⟩ b h = rowOf b := by
  funext i
  obtain ⟨u, a, rfl⟩ : ∃ (u : Fin 1) (a : Fin n), i = ix2 u a := ⟨i 0, i 1, eq_ix2 i⟩
  exact shapeCast_a_1a_apply b h u a

/-- The network's output as a function of the features x, the edge list, the edge weights, and the three layers' weights
    and biases. -/
def gcn (x : FVec Ideal S100000x512 .f32) (edges : (⟨S2x3200000, .i32⟩ : BufTy).Contents (Elt Ideal)) (ew : FVec Ideal S3200000 .f32)
    (w1 : FVec Ideal S512x64 .f32) (b1 : FVec Ideal S64 .f32) (w2 : FVec Ideal S64x64 .f32) (b2 : FVec Ideal S64 .f32)
    (wf : FVec Ideal S64x5 .f32) (bf : FVec Ideal S5 .f32) : FVec Ideal S100000x5 .f32 :=
  addRow (M := 100000) (N := 5)
    (matProd (M := 100000) (K := 64) (N := 5)
      (addRowFloor (M := 100000) (N := 64)
        (aggr (F := Ideal)
          (matProd (M := 100000) (K := 64) (N := 64)
            (addRowFloor (M := 100000) (N := 64)
              (aggr (F := Ideal) (matProd (M := 100000) (K := 512) (N := 64) x w1) (edgeRow0 edges) (edgeRow1 edges) ew)
              (rowOf b1))
            w2)
          (edgeRow0 edges) (edgeRow1 edges) ew)
        (rowOf b2))
      wf)
    (rowOf bf)

end Cert.Gcn

end
-- ==== Proof.KernelValue.lean ====
/-
  The idealized kernel's result buffer, read through the ten segments of @main, is the network's function of the
  arguments.

  Going through the boundaries in order: the first stretch splits the edge list; launch 0 leaves x · W1; the second stretch
  aggregates it over the graph and lays b1 out as a row; launch 1 adds the row and floors at zero; launch 2 multiplies by
  W2; the third stretch aggregates again and lays out b2; launch 3 adds and floors; launch 4 multiplies by Wf; the last
  stretch lays out bf; launch 5 adds it. A launch changes only its output array and a stretch only the buffers it writes,
  so each argument, and the two rows of the edge list, are still as launched (or as split) wherever they are read.
-/
import proofs.«167058_j34514357191054_1_alg».proof.Proof.Gen.KernelIdeal.Frame
import proofs.«167058_j34514357191054_1_alg».proof.Proof.Product0
import proofs.«167058_j34514357191054_1_alg».proof.Proof.Product2
import proofs.«167058_j34514357191054_1_alg».proof.Proof.Product4
import proofs.«167058_j34514357191054_1_alg».proof.Proof.Bias1
import proofs.«167058_j34514357191054_1_alg».proof.Proof.Bias3
import proofs.«167058_j34514357191054_1_alg».proof.Proof.Bias5
import proofs.«167058_j34514357191054_1_alg».proof.Proof.Glue
import proofs.«167058_j34514357191054_1_alg».proof.Proof.Keeps
import proofs.«167058_j34514357191054_1_alg».proof.Proof.Model

set_option maxRecDepth 16384

noncomputable section

namespace Cert.KernelIdeal.ValueRead

open Cert.KernelIdeal Cert.KernelIdeal.Gen Cert.Gcn
open Idealize.ShloMosaic Idealize.ShloMosaic.TcCoe Idealize.SL.Sem

variable (m : (ℓ : Loc nD τ sig) → Buf (Elt Ideal) ℓ) (ρ : Dev nD → PrngReg) (c : Dev nD)

/-! ## The arguments and the edge list's rows, where they are read -/

theorem at1_main_arg0 : W1 m ρ c (Proc.devRef .tc main_arg0) = m ((c : Thread nD τ).loc main_arg0) :=
  (Keeps.keep0_main_arg0 (W0 m ρ c)).trans rfl

theorem at1_main_arg3 : W1 m ρ c (Proc.devRef .tc main_arg3) = m ((c : Thread nD τ).loc main_arg3) :=
  (Keeps.keep0_main_arg3 (W0 m ρ c)).trans rfl

theorem at1_main_v1 : W1 m ρ c (Proc.devRef .tc main_v1) = edgeRow0 (F := Ideal) (m ((c : Thread nD τ).loc main_arg1)) :=
  (Glue.split_src (W0 m ρ c)).trans rfl
theorem at2_main_v1 : W2 m ρ c (Proc.devRef .tc main_v1) = edgeRow0 (F := Ideal) (m ((c : Thread nD τ).loc main_arg1)) :=
  (W2_of_ne m ρ c main_v1 (by decide)).trans (at1_main_v1 m ρ c)
theorem at3_main_v1 : W3 m ρ c (Proc.devRef .tc main_v1) = edgeRow0 (F := Ideal) (m ((c : Thread nD τ).loc main_arg1)) :=
  (Keeps.keep1_main_v1 (W2 m ρ c)).trans (at2_main_v1 m ρ c)
theorem at4_main_v1 : W4 m ρ c (Proc.devRef .tc main_v1) = edgeRow0 (F := Ideal) (m ((c : Thread nD τ).loc main_arg1)) :=
  (W4_of_ne m ρ c main_v1 (by decide)).trans (at3_main_v1 m ρ c)
theorem at5_main_v1 : W5 m ρ c (Proc.devRef .tc main_v1) = edgeRow0 (F := Ideal) (m ((c : Thread nD τ).loc main_arg1)) :=
  (W5_of_ne m ρ c main_v1 (by decide)).trans (at4_main_v1 m ρ c)

theorem at1_main_v3 : W1 m ρ c (Proc.devRef .tc main_v3) = edgeRow1 (F := Ideal) (m ((c : Thread nD τ).loc main_arg1)) :=
  (Glue.split_dst (W0 m ρ c)).trans rfl
theorem at2_main_v3 : W2 m ρ c (Proc.devRef .tc main_v3) = edgeRow1 (F := Ideal) (m ((c : Thread nD τ).loc main_arg1)) :=
  (W2_of_ne m ρ c main_v3 (by decide)).trans (at1_main_v3 m ρ c)
theorem at3_main_v3 : W3 m ρ c (Proc.devRef .tc main_v3) = edgeRow1 (F := Ideal) (m ((c : Thread nD τ).loc main_arg1)) :=
  (Keeps.keep1_main_v3 (W2 m ρ c)).trans (at2_main_v3 m ρ c)
theorem at4_main_v3 : W4 m ρ c (Proc.devRef .tc main_v3) = edgeRow1 (F := Ideal) (m ((c : Thread nD τ).loc main_arg1)) :=
  (W4_of_ne m ρ c main_v3 (by decide)).trans (at3_main_v3 m ρ c)
theorem at5_main_v3 : W5 m ρ c (Proc.devRef .tc main_v3) = edgeRow1 (F := Ideal) (m ((c : Thread nD τ).loc main_arg1)) :=
  (W5_of_ne m ρ c main_v3 (by decide)).trans (at4_main_v3 m ρ c)

theorem at1_main_arg2 : W1 m ρ c (Proc.devRef .tc main_arg2) = m ((c : Thread nD τ).loc main_arg2) :=
  (Keeps.keep0_main_arg2 (W0 m ρ c)).trans rfl
theorem at2_main_arg2 : W2 m ρ c (Proc.devRef .tc main_arg2) = m ((c : Thread nD τ).loc main_arg2) :=
  (W2_of_ne m ρ c main_arg2 (by decide)).trans (at1_main_arg2 m ρ c)
theorem at3_main_arg2 : W3 m ρ c (Proc.devRef .tc main_arg2) = m ((c : Thread nD τ).loc main_arg2) :=
  (Keeps.keep1_main_arg2 (W2 m ρ c)).trans (at2_main_arg2 m ρ c)
theorem at4_main_arg2 : W4 m ρ c (Proc.devRef .tc main_arg2) = m ((c : Thread nD τ).loc main_arg2) :=
  (W4_of_ne m ρ c main_arg2 (by decide)).trans (at3_main_arg2 m ρ c)
theorem at5_main_arg2 : W5 m ρ c (Proc.devRef .tc main_arg2) = m ((c : Thread nD τ).loc main_arg2) :=
  (W5_of_ne m ρ c main_arg2 (by decide)).trans (at4_main_arg2 m ρ c)

theorem at1_main_arg4 : W1 m ρ c (Proc.devRef .tc main_arg4) = m ((c : Thread nD τ).loc main_arg4) :=
  (Keeps.keep0_main_arg4 (W0 m ρ c)).trans rfl
theorem at2_main_arg4 : W2 m ρ c (Proc.devRef .tc main_arg4) = m ((c : Thread nD τ).loc main_arg4) :=
  (W2_of_ne m ρ c main_arg4 (by decide)).trans (at1_main_arg4 m ρ c)

theorem at1_main_arg5 : W1 m ρ c (Proc.devRef .tc main_arg5) = m ((c : Thread nD τ).loc main_arg5) :=
  (Keeps.keep0_main_arg5 (W0 m ρ c)).trans rfl
theorem at2_main_arg5 : W2 m ρ c (Proc.devRef .tc main_arg5) = m ((c : Thread nD τ).loc main_arg5) :=
  (W2_of_ne m ρ c main_arg5 (by decide)).trans (at1_main_arg5 m ρ c)
theorem at3_main_arg5 : W3 m ρ c (Proc.devRef .tc main_arg5) = m ((c : Thread nD τ).loc main_arg5) :=
  (Keeps.keep1_main_arg5 (W2 m ρ c)).trans (at2_main_arg5 m ρ c)
theorem at4_main_arg5 : W4 m ρ c (Proc.devRef .tc main_arg5) = m ((c : Thread nD τ).loc main_arg5) :=
  (W4_of_ne m ρ c main_arg5 (by decide)).trans (at3_main_arg5 m ρ c)

theorem at1_main_arg6 : W1 m ρ c (Proc.devRef .tc main_arg6) = m ((c : Thread nD τ).loc main_arg6) :=
  (Keeps.keep0_main_arg6 (W0 m ρ c)).trans rfl
theorem at2_main_arg6 : W2 m ρ c (Proc.devRef .tc main_arg6) = m ((c : Thread nD τ).loc main_arg6) :=
  (W2_of_ne m ρ c main_arg6 (by decide)).trans (at1_main_arg6 m ρ c)
theorem at3_main_arg6 : W3 m ρ c (Proc.devRef .tc main_arg6) = m ((c : Thread nD τ).loc main_arg6) :=
  (Keeps.keep1_main_arg6 (W2 m ρ c)).trans (at2_main_arg6 m ρ c)
theorem at4_main_arg6 : W4 m ρ c (Proc.devRef .tc main_arg6) = m ((c : Thread nD τ).loc main_arg6) :=
  (W4_of_ne m ρ c main_arg6 (by decide)).trans (at3_main_arg6 m ρ c)
theorem at5_main_arg6 : W5 m ρ c (Proc.devRef .tc main_arg6) = m ((c : Thread nD τ).loc main_arg6) :=
  (W5_of_ne m ρ c main_arg6 (by decide)).trans (at4_main_arg6 m ρ c)

theorem at1_main_arg7 : W1 m ρ c (Proc.devRef .tc main_arg7) = m ((c : Thread nD τ).loc main_arg7) :=
  (Keeps.keep0_main_arg7 (W0 m ρ c)).trans rfl
theorem at2_main_arg7 : W2 m ρ c (Proc.devRef .tc main_arg7) = m ((c : Thread nD τ).loc main_arg7) :=
  (W2_of_ne m ρ c main_arg7 (by decide)).trans (at1_main_arg7 m ρ c)
theorem at3_main_arg7 : W3 m ρ c (Proc.devRef .tc main_arg7) = m ((c : Thread nD τ).loc main_arg7) :=
  (Keeps.keep1_main_arg7 (W2 m ρ c)).trans (at2_main_arg7 m ρ c)
theorem at4_main_arg7 : W4 m ρ c (Proc.devRef .tc main_arg7) = m ((c : Thread nD τ).loc main_arg7) :=
  (W4_of_ne m ρ c main_arg7 (by decide)).trans (at3_main_arg7 m ρ c)
theorem at5_main_arg7 : W5 m ρ c (Proc.devRef .tc main_arg7) = m ((c : Thread nD τ).loc main_arg7) :=
  (W5_of_ne m ρ c main_arg7 (by decide)).trans (at4_main_arg7 m ρ c)
theorem at6_main_arg7 : W6 m ρ c (Proc.devRef .tc main_arg7) = m ((c : Thread nD τ).loc main_arg7) :=
  (Keeps.keep3_main_arg7 (W5 m ρ c)).trans (at5_main_arg7 m ρ c)
theorem at7_main_arg7 : W7 m ρ c (Proc.devRef .tc main_arg7) = m ((c : Thread nD τ).loc main_arg7) :=
  (W7_of_ne m ρ c main_arg7 (by decide)).trans (at6_main_arg7 m ρ c)

theorem at1_main_arg8 : W1 m ρ c (Proc.devRef .tc main_arg8) = m ((c : Thread nD τ).loc main_arg8) :=
  (Keeps.keep0_main_arg8 (W0 m ρ c)).trans rfl
theorem at2_main_arg8 : W2 m ρ c (Proc.devRef .tc main_arg8) = m ((c : Thread nD τ).loc main_arg8) :=
  (W2_of_ne m ρ c main_arg8 (by decide)).trans (at1_main_arg8 m ρ c)
theorem at3_main_arg8 : W3 m ρ c (Proc.devRef .tc main_arg8) = m ((c : Thread nD τ).loc main_arg8) :=
  (Keeps.keep1_main_arg8 (W2 m ρ c)).trans (at2_main_arg8 m ρ c)
theorem at4_main_arg8 : W4 m ρ c (Proc.devRef .tc main_arg8) = m ((c : Thread nD τ).loc main_arg8) :=
  (W4_of_ne m ρ c main_arg8 (by decide)).trans (at3_main_arg8 m ρ c)
theorem at5_main_arg8 : W5 m ρ c (Proc.devRef .tc main_arg8) = m ((c : Thread nD τ).loc main_arg8) :=
  (W5_of_ne m ρ c main_arg8 (by decide)).trans (at4_main_arg8 m ρ c)
theorem at6_main_arg8 : W6 m ρ c (Proc.devRef .tc main_arg8) = m ((c : Thread nD τ).loc main_arg8) :=
  (Keeps.keep3_main_arg8 (W5 m ρ c)).trans (at5_main_arg8 m ρ c)
theorem at7_main_arg8 : W7 m ρ c (Proc.devRef .tc main_arg8) = m ((c : Thread nD τ).loc main_arg8) :=
  (W7_of_ne m ρ c main_arg8 (by decide)).trans (at6_main_arg8 m ρ c)
theorem at8_main_arg8 : W8 m ρ c (Proc.devRef .tc main_arg8) = m ((c : Thread nD τ).loc main_arg8) :=
  (W8_of_ne m ρ c main_arg8 (by decide)).trans (at7_main_arg8 m ρ c)

/-! ## The intermediate arrays -/

/-- x · W1. -/
def p1 : FVec Ideal S100000x64 .f32 := matProd (M := 100000) (K := 512) (N := 64) (m ((c : Thread nD τ).loc main_arg0)) (m ((c : Thread nD τ).loc main_arg3))
/-- Its aggregation over the graph. -/
def g1 : FVec Ideal S100000x64 .f32 := aggr (F := Ideal) (p1 m c) (edgeRow0 (m ((c : Thread nD τ).loc main_arg1))) (edgeRow1 (m ((c : Thread nD τ).loc main_arg1))) (m ((c : Thread nD τ).loc main_arg2))
/-- The first layer's output. -/
def h1 : FVec Ideal S100000x64 .f32 := addRowFloor (M := 100000) (N := 64) (g1 m c) (rowOf (m ((c : Thread nD τ).loc main_arg4)))
/-- h1 · W2. -/
def p2 : FVec Ideal S100000x64 .f32 := matProd (M := 100000) (K := 64) (N := 64) (h1 m c) (m ((c : Thread nD τ).loc main_arg5))
def g2 : FVec Ideal S100000x64 .f32 := aggr (F := Ideal) (p2 m c) (edgeRow0 (m ((c : Thread nD τ).loc main_arg1))) (edgeRow1 (m ((c : Thread nD τ).loc main_arg1))) (m ((c : Thread nD τ).loc main_arg2))
/-- The second layer's output. -/
def h2 : FVec Ideal S100000x64 .f32 := addRowFloor (M := 100000) (N := 64) (g2 m c) (rowOf (m ((c : Thread nD τ).loc main_arg6)))
/-- h2 · Wf. -/
def p3 : FVec Ideal S100000x5 .f32 := matProd (M := 100000) (K := 64) (N := 5) (h2 m c) (m ((c : Thread nD τ).loc main_arg7))

theorem aggr_congr {h h' : FVec Ideal S100000x64 .f32} {s s' d d' : (⟨S3200000, .i32⟩ : BufTy).Contents (Elt Ideal)} {w w' : FVec Ideal S3200000 .f32}
    (e1 : h = h') (e2 : s = s') (e3 : d = d') (e4 : w = w') : aggr (F := Ideal) h s d w = aggr (F := Ideal) h' s' d' w' := by
  subst e1 e2 e3 e4; rfl

/-! ## The boundaries, in order -/

theorem after_launch0 : W2 m ρ c (Proc.devRef .tc main_v4) = p1 m c :=
  (W2_arr m ρ c 2).trans ((Product0.array_eq (V1 m ρ) c).trans
    (congrArg₂ (matProd (M := 100000) (K := 512) (N := 64)) (at1_main_arg0 m ρ c) (at1_main_arg3 m ρ c)))

theorem aggregated1 : W3 m ρ c (Proc.devRef .tc main_v44) = g1 m c :=
  (Glue.aggregate1 (W2 m ρ c)).trans
    (aggr_congr (after_launch0 m ρ c) (at2_main_v1 m ρ c) (at2_main_v3 m ρ c) (at2_main_arg2 m ρ c))

theorem bias_laid1 : W3 m ρ c (Proc.devRef .tc main_v45) = rowOf (m ((c : Thread nD τ).loc main_arg4)) :=
  (Glue.bias_row1 (W2 m ρ c)).trans ((shapeCast_eq_rowOf (n := 64) _ _).trans (congrArg rowOf (at2_main_arg4 m ρ c)))

theorem after_launch1 : W4 m ρ c (Proc.devRef .tc main_v46) = h1 m c :=
  (W4_arr m ρ c 2).trans ((Bias1.array_eq (V3 m ρ) c).trans
    (congrArg₂ (addRowFloor (M := 100000) (N := 64)) (aggregated1 m ρ c) (bias_laid1 m ρ c)))

theorem after_launch2 : W5 m ρ c (Proc.devRef .tc main_v47) = p2 m c :=
  (W5_arr m ρ c 2).trans ((Product2.array_eq (V4 m ρ) c).trans
    (congrArg₂ (matProd (M := 100000) (K := 64) (N := 64)) (after_launch1 m ρ c) (at4_main_arg5 m ρ c)))

theorem aggregated2 : W6 m ρ c (Proc.devRef .tc main_v87) = g2 m c :=
  (Glue.aggregate2 (W5 m ρ c)).trans
    (aggr_congr (after_launch2 m ρ c) (at5_main_v1 m ρ c) (at5_main_v3 m ρ c) (at5_main_arg2 m ρ c))

theorem bias_laid2 : W6 m ρ c (Proc.devRef .tc main_v88) = rowOf (m ((c : Thread nD τ).loc main_arg6)) :=
  (Glue.bias_row2 (W5 m ρ c)).trans ((shapeCast_eq_rowOf (n := 64) _ _).trans (congrArg rowOf (at5_main_arg6 m ρ c)))

theorem after_launch3 : W7 m ρ c (Proc.devRef .tc main_v89) = h2 m c :=
  (W7_arr m ρ c 2).trans ((Bias3.array_eq (V6 m ρ) c).trans
    (congrArg₂ (addRowFloor (M := 100000) (N := 64)) (aggregated2 m ρ c) (bias_laid2 m ρ c)))

theorem after_launch4 : W8 m ρ c (Proc.devRef .tc main_v90) = p3 m c :=
  (W8_arr m ρ c 2).trans ((Product4.array_eq (V7 m ρ) c).trans
    (congrArg₂ (matProd (M := 100000) (K := 64) (N := 5)) (after_launch3 m ρ c) (at7_main_arg7 m ρ c)))

theorem product_kept : W9 m ρ c (Proc.devRef .tc main_v90) = p3 m c :=
  (Keeps.keep5_main_v90 (W8 m ρ c)).trans (after_launch4 m ρ c)

theorem bias_laid3 : W9 m ρ c (Proc.devRef .tc main_v91) = rowOf (m ((c : Thread nD τ).loc main_arg8)) :=
  (Glue.bias_row3 (W8 m ρ c)).trans ((shapeCast_eq_rowOf (n := 5) _ _).trans (congrArg rowOf (at8_main_arg8 m ρ c)))

/-- The result buffer at the last boundary is the network's function of the arguments as launched. -/
theorem result_eq : W10 m ρ c (Proc.devRef .tc main_v92)
    = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W10_arr m ρ c 2).trans ((Bias5.array_eq (V9 m ρ) c).trans
    ((congrArg₂ (addRow (M := 100000) (N := 5)) (product_kept m ρ c) (bias_laid3 m ρ c)).trans rfl))

end Cert.KernelIdeal.ValueRead

end
-- ==== Proof.RefStages.lean ====
/-
  The reference's host operations, stage by stage, are the network's function of the arguments.

  Its three dot_generals are matrix products entry by entry; its additions of a bias broadcast over the rows (floored at
  zero by a maximum with a zero array in the first two layers) are the row additions; and the fifty operations in
  between, twice, are the aggregation over the graph, taken whole.
-/
import proofs.«167058_j34514357191054_1_alg».proof.Proof.Gen.ReferenceIdeal.Read
import proofs.«167058_j34514357191054_1_alg».proof.Proof.LibRowsCols
import proofs.«167058_j34514357191054_1_alg».proof.Proof.Model

set_option maxRecDepth 16384

noncomputable section

namespace Cert.ReferenceIdeal.Stages

open Cert.ReferenceIdeal Cert.ReferenceIdeal.Gen Cert.ReferenceIdeal.Read Cert.Gcn
open Idealize.ShloMosaic Idealize.ShloMosaic.ValueIdx

/-! ## The three products -/

theorem product1 (l : FVec Ideal S100000x512 .f32) (r : FVec Ideal S512x64 .f32) :
    Host.dotGeneral (F := Ideal) dot_S100000x512_S512x64_S100000x64_1_0_0_1_n_n none l r = matProd (M := 100000) (K := 512) (N := 64) l r := by
  funext i
  obtain ⟨a, c, rfl⟩ : ∃ (a : Fin 100000) (c : Fin 64), i = ix2 a c := ⟨i 0, i 1, eq_ix2 i⟩
  rw [matProd_ix2]
  simp only [Host.dotGeneral]
  exact RowsCols.dotGeneral_apply dot_S100000x512_S512x64_S100000x64_1_0_0_1_n_n rfl rfl rfl rfl lhs_main_v4_0 rhs_main_v4_1 none _ l r a c

theorem product2 (l : FVec Ideal S100000x64 .f32) (r : FVec Ideal S64x64 .f32) :
    Host.dotGeneral (F := Ideal) dot_S100000x64_S64x64_S100000x64_1_0_0_1_n_n none l r = matProd (M := 100000) (K := 64) (N := 64) l r := by
  funext i
  obtain ⟨a, c, rfl⟩ : ∃ (a : Fin 100000) (c : Fin 64), i = ix2 a c := ⟨i 0, i 1, eq_ix2 i⟩
  rw [matProd_ix2]
  simp only [Host.dotGeneral]
  exact RowsCols.dotGeneral_apply dot_S100000x64_S64x64_S100000x64_1_0_0_1_n_n rfl rfl rfl rfl lhs_main_v49_0 rhs_main_v49_1 none _ l r a c

theorem product3 (l : FVec Ideal S100000x64 .f32) (r : FVec Ideal S64x5 .f32) :
    Host.dotGeneral (F := Ideal) dot_S100000x64_S64x5_S100000x5_1_0_0_1_n_n none l r = matProd (M := 100000) (K := 64) (N := 5) l r := by
  funext i
  obtain ⟨a, c, rfl⟩ : ∃ (a : Fin 100000) (c : Fin 5), i = ix2 a c := ⟨i 0, i 1, eq_ix2 i⟩
  rw [matProd_ix2]
  simp only [Host.dotGeneral]
  exact RowsCols.dotGeneral_apply dot_S100000x64_S64x5_S100000x5_1_0_0_1_n_n rfl rfl rfl rfl lhs_main_v94_0 rhs_main_v94_1 none _ l r a c

/-! ## The bias rows -/

/-- A bias broadcast over the rows, read at (a, c), is the bias at c. -/
theorem bias1_at (b : FVec Ideal S64 .f32) (a : Fin 100000) (c : Fin 64) : val_main_v46 (F := Ideal) b (ix2 a c) = b (ix1 c) := by
  rw [val_main_v46_apply, val_main_v45_apply]
  exact congrArg b (funext fun d => by match d with | ⟨0, _⟩ => rfl)

theorem bias2_at (b : FVec Ideal S64 .f32) (a : Fin 100000) (c : Fin 64) : val_main_v91 (F := Ideal) b (ix2 a c) = b (ix1 c) := by
  rw [val_main_v91_apply, val_main_v90_apply]
  exact congrArg b (funext fun d => by match d with | ⟨0, _⟩ => rfl)

theorem bias3_at (b : FVec Ideal S5 .f32) (a : Fin 100000) (c : Fin 5) : val_main_v96 (F := Ideal) b (ix2 a c) = b (ix1 c) := by
  rw [val_main_v96_apply, val_main_v95_apply]
  exact congrArg b (funext fun d => by match d with | ⟨0, _⟩ => rfl)

/-! ## The stages -/

theorem stage4 (x0 : FVec Ideal S100000x512 .f32) (x3 : FVec Ideal S512x64 .f32) : val_main_v4 (F := Ideal) x0 x3 = matProd (M := 100000) (K := 512) (N := 64) x0 x3 := by
  unfold val_main_v4; exact product1 x0 x3

set_option maxHeartbeats 2000000 in
/-- The first fifty operations between the product and the bias are the aggregation of the product over the graph. -/
theorem stage44 (x0 : FVec Ideal S100000x512 .f32) (x1 : (⟨S2x3200000, .i32⟩ : BufTy).Contents (Elt Ideal)) (x2 : FVec Ideal S3200000 .f32) (x3 : FVec Ideal S512x64 .f32) :
    val_main_v44 (F := Ideal) x0 x1 x2 x3 = aggr (F := Ideal) (val_main_v4 (F := Ideal) x0 x3) (edgeRow0 x1) (edgeRow1 x1) x2 := rfl

theorem stage48 (x0 : FVec Ideal S100000x512 .f32) (x1 : (⟨S2x3200000, .i32⟩ : BufTy).Contents (Elt Ideal)) (x2 : FVec Ideal S3200000 .f32) (x3 : FVec Ideal S512x64 .f32) (x4 : FVec Ideal S64 .f32) :
    val_main_v48 (F := Ideal) x0 x1 x2 x3 x4 = addRowFloor (M := 100000) (N := 64) (val_main_v44 (F := Ideal) x0 x1 x2 x3) (rowOf x4) := by
  funext i
  obtain ⟨a, c, rfl⟩ : ∃ (a : Fin 100000) (c : Fin 64), i = ix2 a c := ⟨i 0, i 1, eq_ix2 i⟩
  rw [val_main_v48_apply, val_main_v47_apply, bias1_at, val_main_call0_v0_apply, val_main_call0_cst_apply, addRowFloor_ix2, rowOf_ix2]
  rfl

theorem stage49 (x0 : FVec Ideal S100000x512 .f32) (x1 : (⟨S2x3200000, .i32⟩ : BufTy).Contents (Elt Ideal)) (x2 : FVec Ideal S3200000 .f32) (x3 : FVec Ideal S512x64 .f32) (x4 : FVec Ideal S64 .f32) (x5 : FVec Ideal S64x64 .f32) :
    val_main_v49 (F := Ideal) x0 x1 x2 x3 x4 x5 = matProd (M := 100000) (K := 64) (N := 64) (val_main_v48 (F := Ideal) x0 x1 x2 x3 x4) x5 := by
  unfold val_main_v49; exact product2 _ x5

set_option maxHeartbeats 2000000 in
/-- The second fifty are the aggregation of the second product. -/
theorem stage89 (x0 : FVec Ideal S100000x512 .f32) (x1 : (⟨S2x3200000, .i32⟩ : BufTy).Contents (Elt Ideal)) (x2 : FVec Ideal S3200000 .f32) (x3 : FVec Ideal S512x64 .f32) (x4 : FVec Ideal S64 .f32) (x5 : FVec Ideal S64x64 .f32) :
    val_main_v89 (F := Ideal) x0 x1 x2 x3 x4 x5 = aggr (F := Ideal) (val_main_v49 (F := Ideal) x0 x1 x2 x3 x4 x5) (edgeRow0 x1) (edgeRow1 x1) x2 := rfl

theorem stage93 (x0 : FVec Ideal S100000x512 .f32) (x1 : (⟨S2x3200000, .i32⟩ : BufTy).Contents (Elt Ideal)) (x2 : FVec Ideal S3200000 .f32) (x3 : FVec Ideal S512x64 .f32) (x4 : FVec Ideal S64 .f32) (x5 : FVec Ideal S64x64 .f32) (x6 : FVec Ideal S64 .f32) :
    val_main_v93 (F := Ideal) x0 x1 x2 x3 x4 x5 x6 = addRowFloor (M := 100000) (N := 64) (val_main_v89 (F := Ideal) x0 x1 x2 x3 x4 x5) (rowOf x6) := by
  funext i
  obtain ⟨a, c, rfl⟩ : ∃ (a : Fin 100000) (c : Fin 64), i = ix2 a c := ⟨i 0, i 1, eq_ix2 i⟩
  rw [val_main_v93_apply, val_main_v92_apply, bias2_at, val_main_call1_v0_apply, val_main_call1_cst_apply, addRowFloor_ix2, rowOf_ix2]
  rfl

theorem stage94 (x0 : FVec Ideal S100000x512 .f32) (x1 : (⟨S2x3200000, .i32⟩ : BufTy).Contents (Elt Ideal)) (x2 : FVec Ideal S3200000 .f32) (x3 : FVec Ideal S512x64 .f32) (x4 : FVec Ideal S64 .f32) (x5 : FVec Ideal S64x64 .f32) (x6 : FVec Ideal S64 .f32) (x7 : FVec Ideal S64x5 .f32) :
    val_main_v94 (F := Ideal) x0 x1 x2 x3 x4 x5 x6 x7 = matProd (M := 100000) (K := 64) (N := 5) (val_main_v93 (F := Ideal) x0 x1 x2 x3 x4 x5 x6) x7 := by
  unfold val_main_v94; exact product3 _ x7

theorem stage97 (x0 : FVec Ideal S100000x512 .f32) (x1 : (⟨S2x3200000, .i32⟩ : BufTy).Contents (Elt Ideal)) (x2 : FVec Ideal S3200000 .f32) (x3 : FVec Ideal S512x64 .f32) (x4 : FVec Ideal S64 .f32) (x5 : FVec Ideal S64x64 .f32) (x6 : FVec Ideal S64 .f32) (x7 : FVec Ideal S64x5 .f32) (x8 : FVec Ideal S5 .f32) :
    val_main_v97 (F := Ideal) x0 x1 x2 x3 x4 x5 x6 x7 x8 = addRow (M := 100000) (N := 5) (val_main_v94 (F := Ideal) x0 x1 x2 x3 x4 x5 x6 x7) (rowOf x8) := by
  funext i
  obtain ⟨a, c, rfl⟩ : ∃ (a : Fin 100000) (c : Fin 5), i = ix2 a c := ⟨i 0, i 1, eq_ix2 i⟩
  rw [val_main_v97_apply, bias3_at, addRow_ix2, rowOf_ix2]
  rfl

/-- The reference's result is the network's function of its arguments. -/
theorem result_eq (x0 : FVec Ideal S100000x512 .f32) (x1 : (⟨S2x3200000, .i32⟩ : BufTy).Contents (Elt Ideal)) (x2 : FVec Ideal S3200000 .f32) (x3 : FVec Ideal S512x64 .f32) (x4 : FVec Ideal S64 .f32) (x5 : FVec Ideal S64x64 .f32) (x6 : FVec Ideal S64 .f32) (x7 : FVec Ideal S64x5 .f32) (x8 : FVec Ideal S5 .f32) :
    val_main_v97 (F := Ideal) x0 x1 x2 x3 x4 x5 x6 x7 x8 = gcn x0 x1 x2 x3 x4 x5 x6 x7 x8 := by
  rw [stage97, stage94, stage93, stage89, stage49, stage48, stage44, stage4]
  rfl

end Cert.ReferenceIdeal.Stages

end
-- ==== Proof.lean ====
/-
  A two-layer graph convolution network with a final affine map, computed by six kernel launches among host operations,
  against the same network written with plain array operations.

  Over the extended reals both programs compute
    h1  = max (aggr (x · W1) + b1) 0,   h2 = max (aggr (h1 · W2) + b2) 0,   out = h2 · Wf + bf,
  where aggr is the symmetric-normalised neighbourhood aggregation with unit self loops along the weighted edge list
  (Proof/Aggregate.lean, Proof/Model.lean). The kernel computes each product 2000 rows at a time on the matrix unit
  (Proof/Product0, 2, 4: the blocks tile the output and each entry is the same sum over k as in the whole product; the
  rounding to bf16 on the way in is the identity here) and adds each bias, floored at zero in the first two layers, 2000
  rows at a time (Proof/Bias1, 3, 5); between the launches it runs the very host operations the reference runs
  (Proof/Glue.lean, Proof/Keeps.lean), so the aggregation is never opened: the two sides only have to agree on what goes into
  it. Proof/KernelRun.lean reads the result buffer off the run's last boundary, Proof/KernelValue.lean walks the boundaries,
  Proof/RefStages.lean reads the reference's operations as the same function. No law of arithmetic beyond the definitions
  is used, so the precondition (finite inputs) is never opened. The ideal pass rewrote nothing, so the kernel's
  idealization is its own text read over the extended reals.
-/
import proofs.«167058_j34514357191054_1_alg».proof.Defs
import proofs.«167058_j34514357191054_1_alg».proof.Proof.Gen.Kernel
import proofs.«167058_j34514357191054_1_alg».proof.Proof.Gen.Kernel.Frame
import proofs.«167058_j34514357191054_1_alg».proof.Proof.Gen.KernelIdeal
import proofs.«167058_j34514357191054_1_alg».proof.Proof.Gen.KernelIdeal.Frame
import proofs.«167058_j34514357191054_1_alg».proof.Proof.Gen.ReferenceIdeal
import proofs.«167058_j34514357191054_1_alg».proof.Proof.Gen.Pre_finite_inputs
import proofs.«167058_j34514357191054_1_alg».proof.Proof.Gen.ReferenceIdeal.Run
import proofs.«167058_j34514357191054_1_alg».proof.Proof.Gen.ReferenceIdeal.Read
import proofs.«167058_j34514357191054_1_alg».proof.Proof.KernelRun
import proofs.«167058_j34514357191054_1_alg».proof.Proof.KernelValue
import proofs.«167058_j34514357191054_1_alg».proof.Proof.RefStages
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a line of host operations: it runs, and writes none of its arguments. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- From memories that agree on the nine arguments both programs end with the network's function of them in their
    result buffers. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.ValueRead.result_eq m ρ c), (h c).2⟩)
      (Cert.KernelIdeal.RunRead.run_result (F := Ideal) m ρ)
  · refine (θ_run Cert.ReferenceIdeal.defs _ _).mono (fun _ h c => ⟨?_, (h c).2⟩) (Cert.ReferenceIdeal.Value.run (F := Ideal) m' ρ')
    obtain ⟨e0, e1, e2, e3, e4, e5, e6, e7, e8⟩ := hagree c
    rw [(h c).1, Cert.ReferenceIdeal.Read.val_main_v97_eq, Cert.ReferenceIdeal.Stages.result_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
